-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64x2 : Shape := ⟨3, ![1, 64, 2]⟩
abbrev S1x64x1 : Shape := ⟨3, ![1, 64, 1]⟩
abbrev S1x3x1 : Shape := ⟨3, ![1, 3, 1]⟩
abbrev S1x4194304x2 : Shape := ⟨3, ![1, 4194304, 2]⟩
abbrev S_ : Shape := ⟨0, ![]⟩

class Facts : Prop where
  bcast_S_S1x64x2 : S_.BroadcastsInDim S1x64x2 (![] : Fin 0 → Fin S1x64x2.rank)
  reducesTo_S1x64x2_S_d0_1_2 : S1x64x2.ReducesTo [0, 1, 2] S_
  h_S_ : 0 < S_.numel
  bcast_S_S1x64x1 : S_.BroadcastsInDim S1x64x1 (![] : Fin 0 → Fin S1x64x1.rank)
  reducesTo_S1x64x1_S_d0_1_2 : S1x64x1.ReducesTo [0, 1, 2] S_
  bcast_S_S1x3x1 : S_.BroadcastsInDim S1x3x1 (![] : Fin 0 → Fin S1x3x1.rank)
  reducesTo_S1x3x1_S_d0_1_2 : S1x3x1.ReducesTo [0, 1, 2] S_
  bcast_S_S1x4194304x2 : S_.BroadcastsInDim S1x4194304x2 (![] : Fin 0 → Fin S1x4194304x2.rank)
  reducesTo_S1x4194304x2_S_d0_1_2 : S1x4194304x2.ReducesTo [0, 1, 2] S_

variable [Facts]

def fn_part1 {F : FTy → Type} [FloatOps F] (main_v13 : IVec S_ 1) (main_v16 : IVec S1x4194304x2 1) : IVec S_ 1 :=
  let main_c_5 : IVec S_ 1 := constantI S_ 1 1#1
  let main_v17 : IVec S_ 1 := (fun x v => Host.reduce IntOp.andi x v reducesTo_S1x4194304x2_S_d0_1_2 h_S_) main_v16 main_c_5
  let main_v18 : IVec S_ 1 := andi main_v13 main_v17
  main_v18

def fn {F : FTy → Type} [FloatOps F] (main_arg0 : FVec F S1x64x2 .f32) (main_arg1 : FVec F S1x64x1 .f32) (main_arg2 : FVec F S1x3x1 .f32) (main_arg3 : FVec F S1x4194304x2 .f32) : IVec S_ 1 :=
  let main_v0 : FVec F S1x64x2 .f32 := Host.absf main_arg0
  let main_cst : FVec F S_ .f32 := constant S_ .f32 0x7F800000#32
  let main_v1 : FVec F S1x64x2 .f32 := broadcastInDim S1x64x2 ![] bcast_S_S1x64x2 main_cst
  let main_v2 : IVec S1x64x2 1 := cmpf .olt main_v0 main_v1
  let main_c : IVec S_ 1 := constantI S_ 1 1#1
  let main_v3 : IVec S_ 1 := (fun x v => Host.reduce IntOp.andi x v reducesTo_S1x64x2_S_d0_1_2 h_S_) main_v2 main_c
  let main_v4 : FVec F S1x64x1 .f32 := Host.absf main_arg1
  let main_cst_0 : FVec F S_ .f32 := constant S_ .f32 0x7F800000#32
  let main_v5 : FVec F S1x64x1 .f32 := broadcastInDim S1x64x1 ![] bcast_S_S1x64x1 main_cst_0
  let main_v6 : IVec S1x64x1 1 := cmpf .olt main_v4 main_v5
  let main_c_1 : IVec S_ 1 := constantI S_ 1 1#1
  let main_v7 : IVec S_ 1 := (fun x v => Host.reduce IntOp.andi x v reducesTo_S1x64x1_S_d0_1_2 h_S_) main_v6 main_c_1
  let main_v8 : IVec S_ 1 := andi main_v3 main_v7
  let main_v9 : FVec F S1x3x1 .f32 := Host.absf main_arg2
  let main_cst_2 : FVec F S_ .f32 := constant S_ .f32 0x7F800000#32
  let main_v10 : FVec F S1x3x1 .f32 := broadcastInDim S1x3x1 ![] bcast_S_S1x3x1 main_cst_2
  let main_v11 : IVec S1x3x1 1 := cmpf .olt main_v9 main_v10
  let main_c_3 : IVec S_ 1 := constantI S_ 1 1#1
  let main_v12 : IVec S_ 1 := (fun x v => Host.reduce IntOp.andi x v reducesTo_S1x3x1_S_d0_1_2 h_S_) main_v11 main_c_3
  let main_v13 : IVec S_ 1 := andi main_v8 main_v12
  let main_v14 : FVec F S1x4194304x2 .f32 := Host.absf main_arg3
  let main_cst_4 : FVec F S_ .f32 := constant S_ .f32 0x7F800000#32
  let main_v15 : FVec F S1x4194304x2 .f32 := broadcastInDim S1x4194304x2 ![] bcast_S_S1x4194304x2 main_cst_4
  let main_v16 : IVec S1x4194304x2 1 := cmpf .olt main_v14 main_v15
  fn_part1 (F := F) main_v13 main_v16
-- ==== Kernel.lean ====
abbrev S1x64x2 : Shape := ⟨3, ![1, 64, 2]⟩
abbrev S1x64x1 : Shape := ⟨3, ![1, 64, 1]⟩
abbrev S1x3x1 : Shape := ⟨3, ![1, 3, 1]⟩
abbrev S1x4194304x2 : Shape := ⟨3, ![1, 4194304, 2]⟩
abbrev S64x2 : Shape := ⟨2, ![64, 2]⟩
abbrev S64x1 : Shape := ⟨2, ![64, 1]⟩
abbrev S64 : Shape := ⟨1, ![64]⟩
abbrev S_ : Shape := ⟨0, ![]⟩
abbrev S64x4 : Shape := ⟨2, ![64, 4]⟩
abbrev S1x64 : Shape := ⟨2, ![1, 64]⟩
abbrev S3x1 : Shape := ⟨2, ![3, 1]⟩
abbrev S4194304x2 : Shape := ⟨2, ![4194304, 2]⟩
abbrev S2x4194304 : Shape := ⟨2, ![2, 4194304]⟩
abbrev S1x4194304 : Shape := ⟨2, ![1, 4194304]⟩
abbrev S2x16384 : Shape := ⟨2, ![2, 16384]⟩
abbrev S1x16384 : Shape := ⟨2, ![1, 16384]⟩
abbrev S4x16384 : Shape := ⟨2, ![4, 16384]⟩
abbrev S64x16384 : Shape := ⟨2, ![64, 16384]⟩
abbrev S1x1 : Shape := ⟨2, ![1, 1]⟩
abbrev S1x2048x2048x1 : Shape := ⟨4, ![1, 2048, 2048, 1]⟩

abbrev nBuf : Space → Nat
  | .hbm => 35
  | .vmem => 7
  | .smem => 0
  | _ => 0

abbrev bufTy : (tb : Table) → Fin (tcTables nBuf tb) → BufTy
  | .hbm, ⟨0, _⟩ => ⟨S1x64x2, .f32⟩
  | .hbm, ⟨1, _⟩ => ⟨S1x64x1, .f32⟩
  | .hbm, ⟨2, _⟩ => ⟨S1x3x1, .f32⟩
  | .hbm, ⟨3, _⟩ => ⟨S1x4194304x2, .f32⟩
  | .hbm, ⟨4, _⟩ => ⟨S64x2, .f32⟩
  | .hbm, ⟨5, _⟩ => ⟨S64x1, .f32⟩
  | .hbm, ⟨6, _⟩ => ⟨S64, .f32⟩
  | .hbm, ⟨7, _⟩ => ⟨S64x1, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64x1, .f32⟩
  | .hbm, ⟨21, _⟩ => ⟨S64x1, .f32⟩
  | .hbm, ⟨22, _⟩ => ⟨S64x1, .f32⟩
  | .hbm, ⟨23, _⟩ => ⟨S64x1, .f32⟩
  | .hbm, ⟨24, _⟩ => ⟨S64x4, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S1x64, .f32⟩
  | .hbm, ⟨30, _⟩ => ⟨S3x1, .f32⟩
  | .hbm, ⟨31, _⟩ => ⟨S4194304x2, .f32⟩
  | .hbm, ⟨32, _⟩ => ⟨S2x4194304, .f32⟩
  | .hbm, ⟨33, _⟩ => ⟨S1x4194304, .f32⟩
  | .hbm, ⟨34, _⟩ => ⟨S1x2048x2048x1, .f32⟩
  | .local _ .vmem, ⟨0, _⟩ => ⟨S2x16384, .f32⟩
  | .local _ .vmem, ⟨1, _⟩ => ⟨S2x16384, .f32⟩
  | .local _ .vmem, ⟨2, _⟩ => ⟨S64x4, .f32⟩
  | .local _ .vmem, ⟨3, _⟩ => ⟨S1x64, .f32⟩
  | .local _ .vmem, ⟨4, _⟩ => ⟨S3x1, .f32⟩
  | .local _ .vmem, ⟨5, _⟩ => ⟨S1x16384, .f32⟩
  | .local _ .vmem, ⟨6, _⟩ => ⟨S1x16384, .f32⟩
  | _, _ => ⟨S1x64x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x64x2_S64x2 : S1x64x2.ShapeCasts S64x2
  slices_S64x2_S64x1_0_0 : S64x2.Slices ![0, 0] S64x1
  shapeCasts_S64x1_S64 : S64x1.ShapeCasts S64
  slices_S64x2_S64x1_0_1 : S64x2.Slices ![0, 1] S64x1
  bcast_S_S64 : S_.BroadcastsInDim S64 (![] : Fin 0 → Fin S64.rank)
  bcast_S64_S64x1_0 : S64.BroadcastsInDim S64x1 (![0] : Fin 1 → Fin S64x1.rank)
  concatenates_S64x1_S64x1_S64x1_S64x1_S64x4_d1 : Shape.Concatenates [S64x1, S64x1, S64x1, S64x1] S64x4 1
  shapeCasts_S1x64x1_S64 : S1x64x1.ShapeCasts S64
  shapeCasts_S64_S1x64 : S64.ShapeCasts S1x64
  shapeCasts_S1x3x1_S3x1 : S1x3x1.ShapeCasts S3x1
  shapeCasts_S1x4194304x2_S4194304x2 : S1x4194304x2.ShapeCasts S4194304x2
  transposes_S4194304x2_S2x4194304_1_0 : S4194304x2.Transposes [1, 0] S2x4194304
  inb_S2x16384_S2x16384_0_0 : ∀ a, (![0, 0] : Fin 2 → Nat) a + S2x16384.size a ≤ S2x16384.size a
  h_S2x16384 : 0 < S2x16384.numel
  shapeCasts_S2x16384_S2x16384 : S2x16384.ShapeCasts S2x16384
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S3x1_S3x1_0_0 : ∀ a, (![0, 0] : Fin 2 → Nat) a + S3x1.size a ≤ S3x1.size a
  h_S3x1 : 0 < S3x1.numel
  shapeCasts_S3x1_S3x1 : S3x1.ShapeCasts S3x1
  slices_S2x16384_o0_0_S1x16384 : S2x16384.Slices ![0, 0] S1x16384
  slices_S2x16384_o1_0_S1x16384 : S2x16384.Slices ![1, 0] S1x16384
  concatenates_S1x16384_S1x16384_S1x16384_S1x16384_S4x16384_d0 : Shape.Concatenates [S1x16384, S1x16384, S1x16384, S1x16384] S4x16384 0
  slices_S3x1_o0_0_S1x1 : S3x1.Slices ![0, 0] S1x1
  broadcasts_S1x1_S1x16384 : S1x1.Broadcasts S1x16384
  slices_S3x1_o1_0_S1x1 : S3x1.Slices ![1, 0] S1x1
  slices_S3x1_o2_0_S1x1 : S3x1.Slices ![2, 0] S1x1
  inb_S1x16384_S1x16384_0_0 : ∀ a, (![0, 0] : Fin 2 → Nat) a + S1x16384.size a ≤ S1x16384.size a
  h_S1x16384 : 0 < S1x16384.numel
  shapeCasts_S1x4194304_S1x2048x2048x1 : S1x4194304.ShapeCasts S1x2048x2048x1
  dot_S64x4_S4x16384_S64x16384_1_0_0_1_n_n_wf : DotDims.WF S64x4 S4x16384 S64x16384 [1] [0] [0] [1] [] []
  dot_S1x64_S64x16384_S1x16384_1_0_0_1_n_n_wf : DotDims.WF S1x64 S64x16384 S1x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x16384.size a ≤ S2x4194304.size a
  hwx0_0 : ∀ i : grid0.Coords, EltTy.bits .f32 = 32 ∨ (Rect.block (s := S2x4194304) S2x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4.size a ≤ S64x4.size a
  hwx0_1 : ∀ i : grid0.Coords, EltTy.bits .f32 = 32 ∨ (Rect.block (s := S64x4) S64x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x1.size a ≤ S3x1.size a
  hwx0_3 : ∀ i : grid0.Coords, EltTy.bits .f32 = 32 ∨ (Rect.block (s := S3x1) S3x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16384.size a ≤ S1x4194304.size a
  hwx0_4 : ∀ i : grid0.Coords, EltTy.bits .f32 = 32 ∨ (Rect.block (s := S1x4194304) S1x16384.size (cc0_transform_4 i) (hinb0_4 i)).WholeWords (EltTy.packing .f32)

variable [Facts₀]

def dot_S64x4_S4x16384_S64x16384_1_0_0_1_n_n : DotDims S64x4 S4x16384 S64x16384 where
  lhsContracting := [1]
  rhsContracting := [0]
  lhsNonContracting := [0]
  rhsNonContracting := [1]
  lhsBatch := []
  rhsBatch := []
  wf := dot_S64x4_S4x16384_S64x16384_1_0_0_1_n_n_wf
def dot_S1x64_S64x16384_S1x16384_1_0_0_1_n_n : DotDims S1x64 S64x16384 S1x16384 where
  lhsContracting := [1]
  rhsContracting := [0]
  lhsNonContracting := [0]
  rhsNonContracting := [1]
  lhsBatch := []
  rhsBatch := []
  wf := dot_S1x64_S64x16384_S1x16384_1_0_0_1_n_n_wf

abbrev win0_0 : Pipeline.Window sig grid0 :=
  Pipeline.Window.ofSpec (Memref.whole main_v24) S2x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S64x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S3x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x16384.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x64x2 : Shape := ⟨3, ![1, 64, 2]⟩
abbrev S1x64x1 : Shape := ⟨3, ![1, 64, 1]⟩
abbrev S1x3x1 : Shape := ⟨3, ![1, 3, 1]⟩
abbrev S1x4194304x2 : Shape := ⟨3, ![1, 4194304, 2]⟩
abbrev S_ : Shape := ⟨0, ![]⟩
abbrev S1x4194304 : Shape := ⟨2, ![1, 4194304]⟩
abbrev S1x4194304x1 : Shape := ⟨3, ![1, 4194304, 1]⟩
abbrev S1x64 : Shape := ⟨2, ![1, 64]⟩
abbrev S1x4194304x64 : Shape := ⟨3, ![1, 4194304, 64]⟩
abbrev S1x1x64 : Shape := ⟨3, ![1, 1, 64]⟩
abbrev S1x4194304x3 : Shape := ⟨3, ![1, 4194304, 3]⟩
abbrev S1x2048x2048x1 : Shape := ⟨4, ![1, 2048, 2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S1x64x2, .f32⟩
  | .hbm, ⟨1, _⟩ => ⟨S1x64x1, .f32⟩
  | .hbm, ⟨2, _⟩ => ⟨S1x3x1, .f32⟩
  | .hbm, ⟨3, _⟩ => ⟨S1x4194304x2, .f32⟩
  | .hbm, ⟨4, _⟩ => ⟨S1x4194304x2, .f32⟩
  | .hbm, ⟨5, _⟩ => ⟨S_, .f32⟩
  | .hbm, ⟨6, _⟩ => ⟨S1x4194304, .f32⟩
  | .hbm, ⟨7, _⟩ => ⟨S1x4194304x1, .f32⟩
  | .hbm, ⟨8, _⟩ => ⟨S1x64x2, .f32⟩
  | .hbm, ⟨9, _⟩ => ⟨S_, .f32⟩
  | .hbm, ⟨10, _⟩ => ⟨S1x64, .f32⟩
  | .hbm, ⟨11, _⟩ => ⟨S1x64x1, .f32⟩
  | .hbm, ⟨12, _⟩ => ⟨S1x4194304x64, .f32⟩
  | .hbm, ⟨13, _⟩ => ⟨S_, .f32⟩
  | .hbm, ⟨14, _⟩ => ⟨S1x4194304x64, .f32⟩
  | .hbm, ⟨15, _⟩ => ⟨S1x4194304x64, .f32⟩
  | .hbm, ⟨16, _⟩ => ⟨S1x4194304x64, .f32⟩
  | .hbm, ⟨17, _⟩ => ⟨S1x4194304x64, .f32⟩
  | .hbm, ⟨18, _⟩ => ⟨S1x1x64, .f32⟩
  | .hbm, ⟨19, _⟩ => ⟨S1x4194304x64, .f32⟩
  | .hbm, ⟨20, _⟩ => ⟨S1x4194304x64, .f32⟩
  | .hbm, ⟨21, _⟩ => ⟨S_, .f32⟩
  | .hbm, ⟨22, _⟩ => ⟨S1x4194304x64, .f32⟩
  | .hbm, ⟨23, _⟩ => ⟨S1x4194304x64, .f32⟩
  | .hbm, ⟨24, _⟩ => ⟨S_, .f32⟩
  | .hbm, ⟨25, _⟩ => ⟨S1x4194304x64, .f32⟩
  | .hbm, ⟨26, _⟩ => ⟨S1x4194304x64, .f32⟩
  | .hbm, ⟨27, _⟩ => ⟨S1x4194304x64, .f32⟩
  | .hbm, ⟨28, _⟩ => ⟨S1x4194304x64, .f32⟩
  | .hbm, ⟨29, _⟩ => ⟨S1x4194304x1, .f32⟩
  | .hbm, ⟨30, _⟩ => ⟨S_, .f32⟩
  | .hbm, ⟨31, _⟩ => ⟨S1x4194304x1, .f32⟩
  | .hbm, ⟨32, _⟩ => ⟨S1x4194304x3, .f32⟩
  | .hbm, ⟨33, _⟩ => ⟨S1x4194304x1, .f32⟩
  | .hbm, ⟨34, _⟩ => ⟨S1x4194304x1, .f32⟩
  | .hbm, ⟨35, _⟩ => ⟨S1x2048x2048x1, .f32⟩
  | _, _ => ⟨S1x64x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  reducesTo_S1x4194304x2_S1x4194304_d2 : S1x4194304x2.ReducesTo [2] S1x4194304
  h_S_ : 0 < S_.numel
  bcast_S1x4194304_S1x4194304x1_0_1 : S1x4194304.BroadcastsInDim S1x4194304x1 (![0, 1] : Fin 2 → Fin S1x4194304x1.rank)
  reducesTo_S1x64x2_S1x64_d2 : S1x64x2.ReducesTo [2] S1x64
  bcast_S1x64_S1x64x1_0_1 : S1x64.BroadcastsInDim S1x64x1 (![0, 1] : Fin 2 → Fin S1x64x1.rank)
  bcast_S_S1x4194304x64 : S_.BroadcastsInDim S1x4194304x64 (![] : Fin 0 → Fin S1x4194304x64.rank)
  bcast_S1x4194304x1_S1x4194304x64_0_1_2 : S1x4194304x1.BroadcastsInDim S1x4194304x64 (![0, 1, 2] : Fin 3 → Fin S1x4194304x64.rank)
  transposes_S1x64x1_S1x1x64_0_2_1 : S1x64x1.Transposes [0, 2, 1] S1x1x64
  bcast_S1x1x64_S1x4194304x64_0_1_2 : S1x1x64.BroadcastsInDim S1x4194304x64 (![0, 1, 2] : Fin 3 → Fin S1x4194304x64.rank)
  bcast_S_S1x4194304x1 : S_.BroadcastsInDim S1x4194304x1 (![] : Fin 0 → Fin S1x4194304x1.rank)
  concatenates_S1x4194304x2_S1x4194304x1_S1x4194304x3_d2 : Shape.Concatenates [S1x4194304x2, S1x4194304x1] S1x4194304x3 2
  shapeCasts_S1x4194304x1_S1x2048x2048x1 : S1x4194304x1.ShapeCasts S1x2048x2048x1
  dot_S1x4194304x2_S1x64x2_S1x4194304x64_2_2_1_1_0_0_wf : DotDims.WF S1x4194304x2 S1x64x2 S1x4194304x64 [2] [2] [1] [1] [0] [0]
  dot_S1x4194304x64_S1x64x1_S1x4194304x1_2_1_1_2_0_0_wf : DotDims.WF S1x4194304x64 S1x64x1 S1x4194304x1 [2] [1] [1] [2] [0] [0]
  dot_S1x4194304x3_S1x3x1_S1x4194304x1_2_1_1_2_0_0_wf : DotDims.WF S1x4194304x3 S1x3x1 S1x4194304x1 [2] [1] [1] [2] [0] [0]

variable [Facts₀]

def dot_S1x4194304x2_S1x64x2_S1x4194304x64_2_2_1_1_0_0 : DotDims S1x4194304x2 S1x64x2 S1x4194304x64 where
  lhsContracting := [2]
  rhsContracting := [2]
  lhsNonContracting := [1]
  rhsNonContracting := [1]
  lhsBatch := [0]
  rhsBatch := [0]
  wf := dot_S1x4194304x2_S1x64x2_S1x4194304x64_2_2_1_1_0_0_wf
def dot_S1x4194304x64_S1x64x1_S1x4194304x1_2_1_1_2_0_0 : DotDims S1x4194304x64 S1x64x1 S1x4194304x1 where
  lhsContracting := [2]
  rhsContracting := [1]
  lhsNonContracting := [1]
  rhsNonContracting := [2]
  lhsBatch := [0]
  rhsBatch := [0]
  wf := dot_S1x4194304x64_S1x64x1_S1x4194304x1_2_1_1_2_0_0_wf
def dot_S1x4194304x3_S1x3x1_S1x4194304x1_2_1_1_2_0_0 : DotDims S1x4194304x3 S1x3x1 S1x4194304x1 where
  lhsContracting := [2]
  rhsContracting := [1]
  lhsNonContracting := [1]
  rhsNonContracting := [2]
  lhsBatch := [0]
  rhsBatch := [0]
  wf := dot_S1x4194304x3_S1x3x1_S1x4194304x1_2_1_1_2_0_0_wf

class Facts : Prop extends Facts₀ where

variable [Facts]
-- ==== Proof.BitsAround.lean ====
/-
  The thin-plate-spline program around its one launch. @main is twenty-nine host lines (the control-point matrix
  [-2tx, -2ty, 1, tx²+ty²], the halved weights as a row, the affine weights, the query points transposed to two
  long rows), the launch over 256 tiles of 16384 queries, and one reshape of the result row to the image.
  Here: what each buffer holds when the launch begins (the host lines before it applied to the initial memory),
  that @main is those lines, the launch, and the reshape; that no host line writes an argument; the tile of each
  operand at a grid point; and that an input's staging buffer holds its tile at every point, fetched there or not
  (the three small operands are fetched once: their tile index never moves).
-/
import proofs.«120117_j14087492731389_2_alg».proof.Proof.Gen.Kernel.Launch
import proofs.«120117_j14087492731389_2_alg».proof.Proof.Gen.Kernel.Skeleton
import proofs.«120117_j14087492731389_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The memory when the launch begins -/

/-- Core `c`'s buffers when the launch begins: the twenty-nine host lines applied to the initial memory. -/
abbrev entry0 (c : Dev nD) : Valuation τ sig (Elt F) := StableHlo.after (List.flatten [hostOps0]) (fun b => m (c, b))
/-- The same, read at one buffer. -/
abbrev entry (c : Dev nD) (b : Ref sig .tc) : Buf (Elt F) ((c : Thread nD τ).loc b) := entry0 m c (Proc.devRef .tc b)

/-- No host line allocates. -/
theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- @main is the host lines, the launch, the reshape: it reduces to the launch continued by the reshape. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The reshape touches only the result row and the image buffer. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- It writes the image buffer, which is no operand of the launch. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-! ## No host line writes an argument -/

/-- A buffer that no host line before the launch writes is found as launched. -/
theorem entry_of_unwritten (c : Dev nD) (b : Ref sig .tc)
    (h : ∀ op ∈ (List.flatten [hostOps0] : List (HloOp τ sig (Elt F))), Proc.devRef .tc b ∉ op.writes) :
    entry m c b = m ((c : Thread nD τ).loc b) :=
  StableHlo.after_of_forall_not_mem (b := Proc.devRef .tc b) _ _ h

theorem before_unwritten (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_cst ∧ b ≠ main_v8 ∧ b ≠ main_v9 ∧ b ≠ main_cst_0 ∧ b ≠ main_v10 ∧ b ≠ main_v11 ∧ b ≠ main_cst_1 ∧ b ≠ main_v12
      ∧ b ≠ main_v13 ∧ b ≠ main_v14 ∧ b ≠ main_v15 ∧ b ≠ main_v16 ∧ b ≠ main_v17 ∧ b ≠ main_v18 ∧ b ≠ main_cst_2 ∧ b ≠ main_v19
      ∧ b ≠ main_v20 ∧ b ≠ main_v21 ∧ b ≠ main_v22 ∧ b ≠ main_v23 ∧ b ≠ main_v24) :
    ∀ op ∈ (List.flatten [hostOps0] : List (HloOp τ sig (Elt F))), Proc.devRef .tc b ∉ op.writes := by
  obtain ⟨h0, h1, h2, h3, h4, h5, h6, h7, h8, h9, h10, h11, h12, h13, h14, h15, h16, h17, h18, h19, h20, h21, h22, h23, h24, h25, h26, h27, h28⟩ := hb
  refine List.forall_iff_forall_mem.mp ?_
  simp only [hostOps0, List.flatten_cons, List.flatten_nil, List.append_nil, List.cons_append,
    List.nil_append, List.Forall, StableHlo.nullary_writes, StableHlo.unary_writes, StableHlo.binary_writes,
    StableHlo.nary_writes, StableHlo.reshape_writes, Finset.mem_singleton]
  repeat' apply And.intro
  all_goals exact StableHlo.devRef_ne_of_ne (by assumption)

theorem entry_arg0 (c : Dev nD) : entry m c main_arg0 = m ((c : Thread nD τ).loc main_arg0) :=
  entry_of_unwritten m c _ (before_unwritten _ (by decide))
theorem entry_arg1 (c : Dev nD) : entry m c main_arg1 = m ((c : Thread nD τ).loc main_arg1) :=
  entry_of_unwritten m c _ (before_unwritten _ (by decide))
theorem entry_arg2 (c : Dev nD) : entry m c main_arg2 = m ((c : Thread nD τ).loc main_arg2) :=
  entry_of_unwritten m c _ (before_unwritten _ (by decide))
theorem entry_arg3 (c : Dev nD) : entry m c main_arg3 = m ((c : Thread nD τ).loc main_arg3) :=
  entry_of_unwritten m c _ (before_unwritten _ (by decide))

/-- After the reshape a buffer that is neither an operand of the launch nor the image is as the launch found it. -/
theorem exit_of_other (dats : (p : Fin 1) → (c : Dev nD) → Dat τ (Elt F) Unit ℕ (UR sig nD τ) ℕ (cfgs p) c) (c : Dev nD)
    (b : Ref sig .tc) (hb : b ≠ main_v26) (hw : ∀ w, Pipeline.arrRef spec0 w ≠ b) :
    Pipeline.afterTail₀ cfgs dats 0 (entry0 m) [hostOps1] c b = entry m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (entry0 m c) _ b hw]

/-! ## The tiles -/

/-- Operand `w`'s tile at grid point `t`, read off its array as the launch finds it. -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The query rows' staging buffer holds the point's tile of 16384 queries. -/
theorem holds0 {c : Dev nD} (dat : Dat τ (Elt F) Unit ℕ (UR sig nD τ) ℕ cfg0 c) (hA : dat.A 0 = entry m c (Pipeline.arrRef spec0 0))
    (hafter : ∀ t, dat.after 0 t = tile m c 0 t) (t : Fin cfg0.N) (d) : dat.before 0 t d = tile m c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
/-- The control-point matrix's staging buffer holds the whole matrix at every point. -/
theorem holds1 {c : Dev nD} (dat : Dat τ (Elt F) Unit ℕ (UR sig nD τ) ℕ cfg0 c) (hA : dat.A 1 = entry m c (Pipeline.arrRef spec0 1))
    (hafter : ∀ t, dat.after 1 t = tile m c 1 t) (t : Fin cfg0.N) (d) : dat.before 1 t d = tile m c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)
/-- The weight row's staging buffer holds the whole row at every point. -/
theorem holds2 {c : Dev nD} (dat : Dat τ (Elt F) Unit ℕ (UR sig nD τ) ℕ cfg0 c) (hA : dat.A 2 = entry m c (Pipeline.arrRef spec0 2))
    (hafter : ∀ t, dat.after 2 t = tile m c 2 t) (t : Fin cfg0.N) (d) : dat.before 2 t d = tile m c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)
/-- The affine weights' staging buffer holds all three at every point. -/
theorem holds3 {c : Dev nD} (dat : Dat τ (Elt F) Unit ℕ (UR sig nD τ) ℕ cfg0 c) (hA : dat.A 3 = entry m c (Pipeline.arrRef spec0 3))
    (hafter : ∀ t, dat.after 3 t = tile m c 3 t) (t : Fin cfg0.N) (d) : dat.before 3 t d = tile m c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

/-! ## The arguments end as launched -/

/-- From a run that ends with every operand of the launch at what the tiles written back make of it and every other
    buffer as the reshape leaves it: the four arguments, which no host line writes and the launch only reads, end as
    launched. -/
theorem args_kept (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entry0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans
        ((exit_of_other m dats c main_arg0 (by decide) (by decide)).trans (entry_arg0 m c)),
     ((h c).2 main_arg1 (Pipeline.mem_restRefs_of main_arg1 (by decide) (by decide))).trans
        ((exit_of_other m dats c main_arg1 (by decide) (by decide)).trans (entry_arg1 m c)),
     ((h c).2 main_arg2 (Pipeline.mem_restRefs_of main_arg2 (by decide) (by decide))).trans
        ((exit_of_other m dats c main_arg2 (by decide) (by decide)).trans (entry_arg2 m c)),
     ((h c).2 main_arg3 (Pipeline.mem_restRefs_of main_arg3 (by decide) (by decide))).trans
        ((exit_of_other m dats c main_arg3 (by decide) (by decide)).trans (entry_arg3 m c))⟩) h

end Cert.Kernel.Around

end
-- ==== Proof.BitsTile.lean ====
/-
  One tile of the thin-plate-spline launch, and the run of the whole program.
  At a grid point the body reads its four staged operands whole — the two rows of 16384 query coordinates, the
  64×4 control-point matrix, the row of 64 halved weights, the three affine weights — and stores ONE whole row of
  16384 results (it also reads the result buffer's old contents, which it never uses). So what the result buffer
  holds after the body is that one stored row, a function of the four tiles; nothing is kept from point to point.
  With that as the proof data the program runs to the end: every operand of the launch ends at what the tiles
  written back make of it, and the arguments end as launched.
-/
import proofs.«120117_j14087492731389_2_alg».proof.Proof.BitsAround

set_option maxRecDepth 16384

noncomputable section

namespace Cert.Kernel.Tile

open Cert.Kernel Cert.Kernel.Gen Cert.Kernel.Around
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each staged operand whole -/

abbrev rQ : Rect S2x16384 := Rect.unit (s := S2x16384) ![0, 0] S2x16384.size inb_S2x16384_S2x16384_0_0
abbrev rT : Rect S64x4 := Rect.unit (s := S64x4) ![0, 0] S64x4.size inb_S64x4_S64x4_0_0
abbrev rW : Rect S1x64 := Rect.unit (s := S1x64) ![0, 0] S1x64.size inb_S1x64_S1x64_0_0
abbrev rV : Rect S3x1 := Rect.unit (s := S3x1) ![0, 0] S3x1.size inb_S3x1_S3x1_0_0
abbrev rO : Rect S1x16384 := Rect.unit (s := S1x16384) ![0, 0] S1x16384.size inb_S1x16384_S1x16384_0_0

/-- The result buffer after the body: its one store, the spline of the four tiles. -/
def resultRow (xq : Vec F S2x16384 .f32) (xT : Vec F S64x4 .f32) (xw : Vec F S1x64 .f32) (xv : Vec F S3x1 .f32) : Vec F S1x16384 .f32 :=
  View.canon [⟨rO, k0_pay1 (View.ld xq rQ) (View.ld xT rT) (View.ld xw rW) (View.ld xv rV)⟩]

/-- The one store is the whole row, so it covers the buffer. -/
theorem store_covers (p0 : Vec F S1x16384 .f32) (y : S1x16384.Idx) :
    ∃ pc ∈ ([⟨rO, p0⟩] : List (View.Piece (Elt F) S1x16384 .f32)), y ∈ pc.1.set :=
  View.cover_of_tiled [⟨rO, p0⟩] S1x16384.size (by rfl) y

/-! ## The body's triple -/

set_option maxHeartbeats 1000000 in
/-- On whole staging buffers, the inputs' at read contents and the result's at anything, the body runs to the
    continuation with the inputs as they were and the result buffer at `resultRow` of them. -/
theorem body_triple (c : Dev nD) (E : Set ℕ) (i : grid0.Coords)
    (arg1 : Memref sig .tc .vmem S2x16384 .f32) (harg1 : arg1.IsWhole) (arg2 : Memref sig .tc .vmem S64x4 .f32) (harg2 : arg2.IsWhole)
    (arg3 : Memref sig .tc .vmem S1x64 .f32) (harg3 : arg3.IsWhole) (arg4 : Memref sig .tc .vmem S3x1 .f32) (harg4 : arg4.IsWhole)
    (arg5 : Memref sig .tc .vmem S1x16384 .f32) (harg5 : arg5.IsWhole)
    (xq : Vec F S2x16384 .f32) (xT : Vec F S64x4 .f32) (xw : Vec F S1x64 .f32) (xv : Vec F S3x1 .f32) (K : PUnit → sProp 𝕄) :
    iprop(owns (c : Thread nD τ) arg1 fullShare xq ∗ owns (c : Thread nD τ) arg2 fullShare xT ∗ owns (c : Thread nD τ) arg3 fullShare xw
        ∗ owns (c : Thread nD τ) arg4 fullShare xv ∗ (∃ d, owns (c : Thread nD τ) arg5 fullShare d)
        ∗ (iprop(owns (c : Thread nD τ) arg1 fullShare xq ∗ owns (c : Thread nD τ) arg2 fullShare xT ∗ owns (c : Thread nD τ) arg3 fullShare xw
            ∗ owns (c : Thread nD τ) arg4 fullShare xv ∗ owns (c : Thread nD τ) arg5 fullShare (resultRow xq xT xw xv)) -∗ K ⟨⟩))
      ⊢ wp frame (wpE (defs₀ (F := F)) Variants.none c none) E (cc0__spline_kernel i arg1 harg1 arg2 harg2 arg3 harg3 arg4 harg4 arg5 harg5) K := by
  simp only [cc0__spline_kernel_eq_skeleton]; unfold cc0__spline_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

/-! ## The proof data of the launch -/

/-- On core `c`: the operands as the launch finds them; after the body at point `t` each input buffer at its tile
    and the result buffer at `resultRow` of the four tiles; nothing of the kernel's own to keep; nothing owed. -/
def data (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => tile m c 1 t
    | ⟨2, _⟩ => tile m c 2 t
    | ⟨3, _⟩ => tile m c 3 t
    | ⟨4, _⟩ => resultRow (tile m c 0 t) (tile m c 1 t) (tile m c 2 t) (tile m c 3 t)
  Φ _ := Pipeline.ΦA spec0 c
  q _ := fullShare
  owed _ := 0

theorem data_A (c : Dev nD) (w : Fin cfg0.W) : (data m 0 c).A w = entry m c (Pipeline.arrRef spec0 w) := by
  dsimp only [data]

theorem after_0 (c : Dev nD) (t : Fin cfg0.N) : (data m 0 c).after 0 t = tile m c 0 t := by dsimp only [data]
theorem after_1 (c : Dev nD) (t : Fin cfg0.N) : (data m 0 c).after 1 t = tile m c 1 t := by dsimp only [data]
theorem after_2 (c : Dev nD) (t : Fin cfg0.N) : (data m 0 c).after 2 t = tile m c 2 t := by dsimp only [data]
theorem after_3 (c : Dev nD) (t : Fin cfg0.N) : (data m 0 c).after 3 t = tile m c 3 t := by dsimp only [data]
theorem after_4 (c : Dev nD) (t : Fin cfg0.N) :
    (data m 0 c).after 4 t = resultRow (tile m c 0 t) (tile m c 1 t) (tile m c 2 t) (tile m c 3 t) := by dsimp only [data]

theorem before_0 (c : Dev nD) (t : Fin cfg0.N) (d) : (data m 0 c).before 0 t d = tile m c 0 t :=
  holds0 m (data m 0 c) (data_A m c 0) (after_0 m c) t d
theorem before_1 (c : Dev nD) (t : Fin cfg0.N) (d) : (data m 0 c).before 1 t d = tile m c 1 t :=
  holds1 m (data m 0 c) (data_A m c 1) (after_1 m c) t d
theorem before_2 (c : Dev nD) (t : Fin cfg0.N) (d) : (data m 0 c).before 2 t d = tile m c 2 t :=
  holds2 m (data m 0 c) (data_A m c 2) (after_2 m c) t d
theorem before_3 (c : Dev nD) (t : Fin cfg0.N) (d) : (data m 0 c).before 3 t d = tile m c 3 t :=
  holds3 m (data m 0 c) (data_A m c 3) (after_3 m c) t d

/-! ## The body at a generic point -/

def tilePre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d)))

def tilePost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t))

/-- At any point the input buffers hold their tiles, so the body's triple applies. -/
theorem tile_sound (c : Dev nD) (t : Fin cfg0.N) :
    tilePre m c t ⊢ wp frame (wpE (defs₀ (F := F)) Variants.none c none) Set.univ (bodyAt0 t) (fun _ => tilePost m c t) := by
  unfold tilePre tilePost bodyAt0
  simp only [before_0, before_1, before_2, before_3]
  rw [show (data m 0 c).Φ t.succ = (data m 0 c).Φ t.castSucc from rfl,
    show (data m 0 c).owesAt () t.succ = (data m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_triple c Set.univ (grid0.coords t) _ _ _ _ _ _ _ _ _ _ (tile m c 0 t) (tile m c 1 t) (tile m c 2 t) (tile m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (data (F := F) m 0 c) (defs₀ (F := F)) Variants.none () Set.univ := fun t => by
  rw [bigSep_W0, bigSep_W0]
  exact tile_sound m c t

/-! ## The run -/

set_option backward.isDefEq.respectTransparency.types false in
/-- Every weakly fair execution of @main terminates, and ends with each operand of the launch at what the tiles
    written back make of it and every other buffer as the reshape leaves it. -/
theorem run_main : θ_run defs (onTc (τ := τ) (main (F := F))) (s₀ m ρ) (Pipeline.FramePost cfgs (data m) 0 (Pipeline.afterTail₀ cfgs (data m) 0 (entry0 m) [hostOps1])) :=
  Pipeline.θ_run_frame_around cfgs (data m) (0 : Fin 1) launch0 defs₀ Variants.none m ρ main
    (hbody := fun c => (body_obligation m c).loose) (hshare := fun c => (data m 0 c).share_full fun _ => rfl)
    (howed := fun _ _ => rfl) (V₀ := entry0 m) (opss := [hostOps1]) (hsub := tail_sub) (hfresh := tail_fresh) (hkeep := tail_keeps)
    (hmain := main_around m Variants.none) (hA := data_A m) (hΦ := fun _ _ => rfl)

/-- The program runs, faults nowhere, and its four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  args_kept m ρ (data m) (run_main m ρ)

end Cert.Kernel.Tile

end
-- ==== Proof.IdealAround.lean ====
/-
  The thin-plate-spline program around its one launch. @main is twenty-nine host lines (the control-point matrix
  [-2tx, -2ty, 1, tx²+ty²], the halved weights as a row, the affine weights, the query points transposed to two
  long rows), the launch over 256 tiles of 16384 queries, and one reshape of the result row to the image.
  Here: what each buffer holds when the launch begins (the host lines before it applied to the initial memory),
  that @main is those lines, the launch, and the reshape; that no host line writes an argument; the tile of each
  operand at a grid point; and that an input's staging buffer holds its tile at every point, fetched there or not
  (the three small operands are fetched once: their tile index never moves).
-/
import proofs.«120117_j14087492731389_2_alg».proof.Proof.Gen.KernelIdeal.Launch
import proofs.«120117_j14087492731389_2_alg».proof.Proof.Gen.KernelIdeal.Skeleton
import proofs.«120117_j14087492731389_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The memory when the launch begins -/

/-- Core `c`'s buffers when the launch begins: the twenty-nine host lines applied to the initial memory. -/
abbrev entry0 (c : Dev nD) : Valuation τ sig (Elt F) := StableHlo.after (List.flatten [hostOps0]) (fun b => m (c, b))
/-- The same, read at one buffer. -/
abbrev entry (c : Dev nD) (b : Ref sig .tc) : Buf (Elt F) ((c : Thread nD τ).loc b) := entry0 m c (Proc.devRef .tc b)

/-- No host line allocates. -/
theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- @main is the host lines, the launch, the reshape: it reduces to the launch continued by the reshape. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The reshape touches only the result row and the image buffer. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- It writes the image buffer, which is no operand of the launch. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-! ## No host line writes an argument -/

/-- A buffer that no host line before the launch writes is found as launched. -/
theorem entry_of_unwritten (c : Dev nD) (b : Ref sig .tc)
    (h : ∀ op ∈ (List.flatten [hostOps0] : List (HloOp τ sig (Elt F))), Proc.devRef .tc b ∉ op.writes) :
    entry m c b = m ((c : Thread nD τ).loc b) :=
  StableHlo.after_of_forall_not_mem (b := Proc.devRef .tc b) _ _ h

theorem before_unwritten (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_cst ∧ b ≠ main_v8 ∧ b ≠ main_v9 ∧ b ≠ main_cst_0 ∧ b ≠ main_v10 ∧ b ≠ main_v11 ∧ b ≠ main_cst_1 ∧ b ≠ main_v12
      ∧ b ≠ main_v13 ∧ b ≠ main_v14 ∧ b ≠ main_v15 ∧ b ≠ main_v16 ∧ b ≠ main_v17 ∧ b ≠ main_v18 ∧ b ≠ main_cst_2 ∧ b ≠ main_v19
      ∧ b ≠ main_v20 ∧ b ≠ main_v21 ∧ b ≠ main_v22 ∧ b ≠ main_v23 ∧ b ≠ main_v24) :
    ∀ op ∈ (List.flatten [hostOps0] : List (HloOp τ sig (Elt F))), Proc.devRef .tc b ∉ op.writes := by
  obtain ⟨h0, h1, h2, h3, h4, h5, h6, h7, h8, h9, h10, h11, h12, h13, h14, h15, h16, h17, h18, h19, h20, h21, h22, h23, h24, h25, h26, h27, h28⟩ := hb
  refine List.forall_iff_forall_mem.mp ?_
  simp only [hostOps0, List.flatten_cons, List.flatten_nil, List.append_nil, List.cons_append,
    List.nil_append, List.Forall, StableHlo.nullary_writes, StableHlo.unary_writes, StableHlo.binary_writes,
    StableHlo.nary_writes, StableHlo.reshape_writes, Finset.mem_singleton]
  repeat' apply And.intro
  all_goals exact StableHlo.devRef_ne_of_ne (by assumption)

theorem entry_arg0 (c : Dev nD) : entry m c main_arg0 = m ((c : Thread nD τ).loc main_arg0) :=
  entry_of_unwritten m c _ (before_unwritten _ (by decide))
theorem entry_arg1 (c : Dev nD) : entry m c main_arg1 = m ((c : Thread nD τ).loc main_arg1) :=
  entry_of_unwritten m c _ (before_unwritten _ (by decide))
theorem entry_arg2 (c : Dev nD) : entry m c main_arg2 = m ((c : Thread nD τ).loc main_arg2) :=
  entry_of_unwritten m c _ (before_unwritten _ (by decide))
theorem entry_arg3 (c : Dev nD) : entry m c main_arg3 = m ((c : Thread nD τ).loc main_arg3) :=
  entry_of_unwritten m c _ (before_unwritten _ (by decide))

/-- After the reshape a buffer that is neither an operand of the launch nor the image is as the launch found it. -/
theorem exit_of_other (dats : (p : Fin 1) → (c : Dev nD) → Dat τ (Elt F) Unit ℕ (UR sig nD τ) ℕ (cfgs p) c) (c : Dev nD)
    (b : Ref sig .tc) (hb : b ≠ main_v26) (hw : ∀ w, Pipeline.arrRef spec0 w ≠ b) :
    Pipeline.afterTail₀ cfgs dats 0 (entry0 m) [hostOps1] c b = entry m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (entry0 m c) _ b hw]

/-! ## The tiles -/

/-- Operand `w`'s tile at grid point `t`, read off its array as the launch finds it. -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The query rows' staging buffer holds the point's tile of 16384 queries. -/
theorem holds0 {c : Dev nD} (dat : Dat τ (Elt F) Unit ℕ (UR sig nD τ) ℕ cfg0 c) (hA : dat.A 0 = entry m c (Pipeline.arrRef spec0 0))
    (hafter : ∀ t, dat.after 0 t = tile m c 0 t) (t : Fin cfg0.N) (d) : dat.before 0 t d = tile m c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
/-- The control-point matrix's staging buffer holds the whole matrix at every point. -/
theorem holds1 {c : Dev nD} (dat : Dat τ (Elt F) Unit ℕ (UR sig nD τ) ℕ cfg0 c) (hA : dat.A 1 = entry m c (Pipeline.arrRef spec0 1))
    (hafter : ∀ t, dat.after 1 t = tile m c 1 t) (t : Fin cfg0.N) (d) : dat.before 1 t d = tile m c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)
/-- The weight row's staging buffer holds the whole row at every point. -/
theorem holds2 {c : Dev nD} (dat : Dat τ (Elt F) Unit ℕ (UR sig nD τ) ℕ cfg0 c) (hA : dat.A 2 = entry m c (Pipeline.arrRef spec0 2))
    (hafter : ∀ t, dat.after 2 t = tile m c 2 t) (t : Fin cfg0.N) (d) : dat.before 2 t d = tile m c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)
/-- The affine weights' staging buffer holds all three at every point. -/
theorem holds3 {c : Dev nD} (dat : Dat τ (Elt F) Unit ℕ (UR sig nD τ) ℕ cfg0 c) (hA : dat.A 3 = entry m c (Pipeline.arrRef spec0 3))
    (hafter : ∀ t, dat.after 3 t = tile m c 3 t) (t : Fin cfg0.N) (d) : dat.before 3 t d = tile m c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

/-! ## The arguments end as launched -/

/-- From a run that ends with every operand of the launch at what the tiles written back make of it and every other
    buffer as the reshape leaves it: the four arguments, which no host line writes and the launch only reads, end as
    launched. -/
theorem args_kept (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entry0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans
        ((exit_of_other m dats c main_arg0 (by decide) (by decide)).trans (entry_arg0 m c)),
     ((h c).2 main_arg1 (Pipeline.mem_restRefs_of main_arg1 (by decide) (by decide))).trans
        ((exit_of_other m dats c main_arg1 (by decide) (by decide)).trans (entry_arg1 m c)),
     ((h c).2 main_arg2 (Pipeline.mem_restRefs_of main_arg2 (by decide) (by decide))).trans
        ((exit_of_other m dats c main_arg2 (by decide) (by decide)).trans (entry_arg2 m c)),
     ((h c).2 main_arg3 (Pipeline.mem_restRefs_of main_arg3 (by decide) (by decide))).trans
        ((exit_of_other m dats c main_arg3 (by decide) (by decide)).trans (entry_arg3 m c))⟩) h

end Cert.KernelIdeal.Around

end
-- ==== Proof.IdealTile.lean ====
/-
  One tile of the thin-plate-spline launch, and the run of the whole program.
  At a grid point the body reads its four staged operands whole — the two rows of 16384 query coordinates, the
  64×4 control-point matrix, the row of 64 halved weights, the three affine weights — and stores ONE whole row of
  16384 results (it also reads the result buffer's old contents, which it never uses). So what the result buffer
  holds after the body is that one stored row, a function of the four tiles; nothing is kept from point to point.
  With that as the proof data the program runs to the end: every operand of the launch ends at what the tiles
  written back make of it, and the arguments end as launched.
-/
import proofs.«120117_j14087492731389_2_alg».proof.Proof.IdealAround

set_option maxRecDepth 16384

noncomputable section

namespace Cert.KernelIdeal.Tile

open Cert.KernelIdeal Cert.KernelIdeal.Gen Cert.KernelIdeal.Around
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each staged operand whole -/

abbrev rQ : Rect S2x16384 := Rect.unit (s := S2x16384) ![0, 0] S2x16384.size inb_S2x16384_S2x16384_0_0
abbrev rT : Rect S64x4 := Rect.unit (s := S64x4) ![0, 0] S64x4.size inb_S64x4_S64x4_0_0
abbrev rW : Rect S1x64 := Rect.unit (s := S1x64) ![0, 0] S1x64.size inb_S1x64_S1x64_0_0
abbrev rV : Rect S3x1 := Rect.unit (s := S3x1) ![0, 0] S3x1.size inb_S3x1_S3x1_0_0
abbrev rO : Rect S1x16384 := Rect.unit (s := S1x16384) ![0, 0] S1x16384.size inb_S1x16384_S1x16384_0_0

/-- The result buffer after the body: its one store, the spline of the four tiles. -/
def resultRow (xq : Vec F S2x16384 .f32) (xT : Vec F S64x4 .f32) (xw : Vec F S1x64 .f32) (xv : Vec F S3x1 .f32) : Vec F S1x16384 .f32 :=
  View.canon [⟨rO, k0_pay1 (View.ld xq rQ) (View.ld xT rT) (View.ld xw rW) (View.ld xv rV)⟩]

/-- The one store is the whole row, so it covers the buffer. -/
theorem store_covers (p0 : Vec F S1x16384 .f32) (y : S1x16384.Idx) :
    ∃ pc ∈ ([⟨rO, p0⟩] : List (View.Piece (Elt F) S1x16384 .f32)), y ∈ pc.1.set :=
  View.cover_of_tiled [⟨rO, p0⟩] S1x16384.size (by rfl) y

/-! ## The body's triple -/

set_option maxHeartbeats 1000000 in
/-- On whole staging buffers, the inputs' at read contents and the result's at anything, the body runs to the
    continuation with the inputs as they were and the result buffer at `resultRow` of them. -/
theorem body_triple (c : Dev nD) (E : Set ℕ) (i : grid0.Coords)
    (arg1 : Memref sig .tc .vmem S2x16384 .f32) (harg1 : arg1.IsWhole) (arg2 : Memref sig .tc .vmem S64x4 .f32) (harg2 : arg2.IsWhole)
    (arg3 : Memref sig .tc .vmem S1x64 .f32) (harg3 : arg3.IsWhole) (arg4 : Memref sig .tc .vmem S3x1 .f32) (harg4 : arg4.IsWhole)
    (arg5 : Memref sig .tc .vmem S1x16384 .f32) (harg5 : arg5.IsWhole)
    (xq : Vec F S2x16384 .f32) (xT : Vec F S64x4 .f32) (xw : Vec F S1x64 .f32) (xv : Vec F S3x1 .f32) (K : PUnit → sProp 𝕄) :
    iprop(owns (c : Thread nD τ) arg1 fullShare xq ∗ owns (c : Thread nD τ) arg2 fullShare xT ∗ owns (c : Thread nD τ) arg3 fullShare xw
        ∗ owns (c : Thread nD τ) arg4 fullShare xv ∗ (∃ d, owns (c : Thread nD τ) arg5 fullShare d)
        ∗ (iprop(owns (c : Thread nD τ) arg1 fullShare xq ∗ owns (c : Thread nD τ) arg2 fullShare xT ∗ owns (c : Thread nD τ) arg3 fullShare xw
            ∗ owns (c : Thread nD τ) arg4 fullShare xv ∗ owns (c : Thread nD τ) arg5 fullShare (resultRow xq xT xw xv)) -∗ K ⟨⟩))
      ⊢ wp frame (wpE (defs₀ (F := F)) Variants.none c none) E (cc0__spline_kernel i arg1 harg1 arg2 harg2 arg3 harg3 arg4 harg4 arg5 harg5) K := by
  simp only [cc0__spline_kernel_eq_skeleton]; unfold cc0__spline_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

/-! ## The proof data of the launch -/

/-- On core `c`: the operands as the launch finds them; after the body at point `t` each input buffer at its tile
    and the result buffer at `resultRow` of the four tiles; nothing of the kernel's own to keep; nothing owed. -/
def data (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => tile m c 1 t
    | ⟨2, _⟩ => tile m c 2 t
    | ⟨3, _⟩ => tile m c 3 t
    | ⟨4, _⟩ => resultRow (tile m c 0 t) (tile m c 1 t) (tile m c 2 t) (tile m c 3 t)
  Φ _ := Pipeline.ΦA spec0 c
  q _ := fullShare
  owed _ := 0

theorem data_A (c : Dev nD) (w : Fin cfg0.W) : (data m 0 c).A w = entry m c (Pipeline.arrRef spec0 w) := by
  dsimp only [data]

theorem after_0 (c : Dev nD) (t : Fin cfg0.N) : (data m 0 c).after 0 t = tile m c 0 t := by dsimp only [data]
theorem after_1 (c : Dev nD) (t : Fin cfg0.N) : (data m 0 c).after 1 t = tile m c 1 t := by dsimp only [data]
theorem after_2 (c : Dev nD) (t : Fin cfg0.N) : (data m 0 c).after 2 t = tile m c 2 t := by dsimp only [data]
theorem after_3 (c : Dev nD) (t : Fin cfg0.N) : (data m 0 c).after 3 t = tile m c 3 t := by dsimp only [data]
theorem after_4 (c : Dev nD) (t : Fin cfg0.N) :
    (data m 0 c).after 4 t = resultRow (tile m c 0 t) (tile m c 1 t) (tile m c 2 t) (tile m c 3 t) := by dsimp only [data]

theorem before_0 (c : Dev nD) (t : Fin cfg0.N) (d) : (data m 0 c).before 0 t d = tile m c 0 t :=
  holds0 m (data m 0 c) (data_A m c 0) (after_0 m c) t d
theorem before_1 (c : Dev nD) (t : Fin cfg0.N) (d) : (data m 0 c).before 1 t d = tile m c 1 t :=
  holds1 m (data m 0 c) (data_A m c 1) (after_1 m c) t d
theorem before_2 (c : Dev nD) (t : Fin cfg0.N) (d) : (data m 0 c).before 2 t d = tile m c 2 t :=
  holds2 m (data m 0 c) (data_A m c 2) (after_2 m c) t d
theorem before_3 (c : Dev nD) (t : Fin cfg0.N) (d) : (data m 0 c).before 3 t d = tile m c 3 t :=
  holds3 m (data m 0 c) (data_A m c 3) (after_3 m c) t d

/-! ## The body at a generic point -/

def tilePre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d)))

def tilePost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t))

/-- At any point the input buffers hold their tiles, so the body's triple applies. -/
theorem tile_sound (c : Dev nD) (t : Fin cfg0.N) :
    tilePre m c t ⊢ wp frame (wpE (defs₀ (F := F)) Variants.none c none) Set.univ (bodyAt0 t) (fun _ => tilePost m c t) := by
  unfold tilePre tilePost bodyAt0
  simp only [before_0, before_1, before_2, before_3]
  rw [show (data m 0 c).Φ t.succ = (data m 0 c).Φ t.castSucc from rfl,
    show (data m 0 c).owesAt () t.succ = (data m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_triple c Set.univ (grid0.coords t) _ _ _ _ _ _ _ _ _ _ (tile m c 0 t) (tile m c 1 t) (tile m c 2 t) (tile m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (data (F := F) m 0 c) (defs₀ (F := F)) Variants.none () Set.univ := fun t => by
  rw [bigSep_W0, bigSep_W0]
  exact tile_sound m c t

/-! ## The run -/

set_option backward.isDefEq.respectTransparency.types false in
/-- Every weakly fair execution of @main terminates, and ends with each operand of the launch at what the tiles
    written back make of it and every other buffer as the reshape leaves it. -/
theorem run_main : θ_run defs (onTc (τ := τ) (main (F := F))) (s₀ m ρ) (Pipeline.FramePost cfgs (data m) 0 (Pipeline.afterTail₀ cfgs (data m) 0 (entry0 m) [hostOps1])) :=
  Pipeline.θ_run_frame_around cfgs (data m) (0 : Fin 1) launch0 defs₀ Variants.none m ρ main
    (hbody := fun c => (body_obligation m c).loose) (hshare := fun c => (data m 0 c).share_full fun _ => rfl)
    (howed := fun _ _ => rfl) (V₀ := entry0 m) (opss := [hostOps1]) (hsub := tail_sub) (hfresh := tail_fresh) (hkeep := tail_keeps)
    (hmain := main_around m Variants.none) (hA := data_A m) (hΦ := fun _ _ => rfl)

/-- The program runs, faults nowhere, and its four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  args_kept m ρ (data m) (run_main m ρ)

end Cert.KernelIdeal.Tile

end
-- ==== Proof.SplineLaw.lean ====
/-
  The thin-plate spline at one query point, in its two spellings, on the extended reals.

  A query point (qx, qy), 64 control points (tx, ty) with weights w, three affine weights v. With
  r² = |q − t|² and φ(r²) = ½ · r² · log (max r² ε), the value is  ∑ₙ φ(r²ₙ) · wₙ + (qx·v₀ + qy·v₁ + v₂).

  One spelling expands r² as the inner product of the control row [−2tx, −2ty, 1, tx²+ty²] with the query
  column [qx, qy, qx²+qy², 1], and halves the weight instead of the kernel value; the other computes
  (|q|² − 2 q·t) + |t|² and ½·r² directly. For finite coordinates the two r² are one real number (the expansion
  of a square: it needs distributivity, hence finiteness); given that, the summands agree by commutativity and
  associativity of the product alone, whatever the weights and whatever the logarithm returns.
-/
import Idealize.ShloMosaic.PureOps.Ideal

noncomputable section

namespace Cert.Spline

open Idealize.ShloMosaic

/-! ## The constants the two programs spell, as the numbers they denote -/

abbrev cZero : EReal := Ideal.ofBits .f32 0x00000000#32
abbrev cOne : EReal := Ideal.ofBits .f32 0x3F800000#32
abbrev cTwo : EReal := Ideal.ofBits .f32 0x40000000#32
abbrev cNegTwo : EReal := Ideal.ofBits .f32 0xC0000000#32
abbrev cHalf : EReal := Ideal.ofBits .f32 0x3F000000#32
abbrev cEps : EReal := Ideal.ofBits .f32 0x2EDBE6FF#32

theorem cZero_eq : cZero = ((0 : ℝ) : EReal) := by
  simp [Ideal.ofBits, Ideal.ieee]
theorem cOne_eq : cOne = ((1 : ℝ) : EReal) := by
  simp [Ideal.ofBits, Ideal.ieee, -EReal.coe_mul]; norm_num
theorem cTwo_eq : cTwo = ((2 : ℝ) : EReal) := by
  simp [Ideal.ofBits, Ideal.ieee, -EReal.coe_mul]; norm_num
theorem cNegTwo_eq : cNegTwo = ((-2 : ℝ) : EReal) := by
  simp [Ideal.ofBits, Ideal.ieee, -EReal.coe_mul]; norm_num

/-! ## The squared distance, twice -/

/-- A control point's row [−2tx, −2ty, 1, tx²+ty²]. -/
def ctrlRow (tc : Fin 2 → EReal) : Fin 4 → EReal := fun k => match k with
  | ⟨0, _⟩ => cNegTwo * tc 0
  | ⟨1, _⟩ => cNegTwo * tc 1
  | ⟨2, _⟩ => cOne
  | ⟨3, _⟩ => tc 0 * tc 0 + tc 1 * tc 1

/-- A query point's column [qx, qy, qx²+qy², 1]. -/
def queryCol (qc : Fin 2 → EReal) : Fin 4 → EReal := fun k => match k with
  | ⟨0, _⟩ => qc 0
  | ⟨1, _⟩ => qc 1
  | ⟨2, _⟩ => qc 0 * qc 0 + qc 1 * qc 1
  | ⟨3, _⟩ => cOne

/-- r² as the inner product of the row and the column. -/
def distK (tc qc : Fin 2 → EReal) : EReal := ∑ k : Fin 4, ctrlRow tc k * queryCol qc k

/-- r² as (|q|² − 2 q·t) + |t|², each norm a sum from zero. -/
def distR (tc qc : Fin 2 → EReal) : EReal :=
  ((cZero + ∑ d : Fin 2, qc d * qc d) - cTwo * ∑ d : Fin 2, qc d * tc d) + (cZero + ∑ d : Fin 2, tc d * tc d)

/-- Finite: a real number. -/
def Fin' (x : EReal) : Prop := x ≠ ⊤ ∧ x ≠ ⊥

theorem exists_real {x : EReal} (h : Fin' x) : ∃ r : ℝ, x = (r : EReal) :=
  ⟨x.toReal, (EReal.coe_toReal h.1 h.2).symm⟩

/-- For finite coordinates the two are one number: −2tx·qx − 2ty·qy + (qx²+qy²) + (tx²+ty²) = (qx²+qy²) − 2(qx·tx+qy·ty) + (tx²+ty²). -/
theorem dist_eq (tc qc : Fin 2 → EReal) (ht : ∀ d, Fin' (tc d)) (hq : ∀ d, Fin' (qc d)) : distK tc qc = distR tc qc := by
  obtain ⟨t0, h0⟩ := exists_real (ht 0)
  obtain ⟨t1, h1⟩ := exists_real (ht 1)
  obtain ⟨q0, g0⟩ := exists_real (hq 0)
  obtain ⟨q1, g1⟩ := exists_real (hq 1)
  unfold distK distR
  rw [Fin.sum_univ_four, Fin.sum_univ_two, Fin.sum_univ_two, Fin.sum_univ_two]
  show (cNegTwo * tc 0) * qc 0 + (cNegTwo * tc 1) * qc 1 + cOne * (qc 0 * qc 0 + qc 1 * qc 1) + (tc 0 * tc 0 + tc 1 * tc 1) * cOne
    = ((cZero + (qc 0 * qc 0 + qc 1 * qc 1)) - cTwo * (qc 0 * tc 0 + qc 1 * tc 1)) + (cZero + (tc 0 * tc 0 + tc 1 * tc 1))
  obtain ⟨m2, hm, hm2⟩ : ∃ c : ℝ, c = -2 ∧ cNegTwo = (c : EReal) := ⟨-2, rfl, cNegTwo_eq⟩
  obtain ⟨p2, hp, hp2⟩ : ∃ c : ℝ, c = 2 ∧ cTwo = (c : EReal) := ⟨2, rfl, cTwo_eq⟩
  rw [h0, h1, g0, g1, cZero_eq, cOne_eq, hp2, hm2]
  norm_cast
  rw [hm, hp]
  ring

/-! ## The spline, twice -/

/-- r² · log (max r² ε). -/
def tps (r : EReal) : EReal := r * Ideal.log (max r cEps)

/-- From a matrix of control rows, a row of (already halved) weights and the affine weights: what one tile computes. -/
def tileOut (T : Fin 64 → Fin 4 → EReal) (w : Fin 64 → EReal) (v : Fin 3 → EReal) (qc : Fin 2 → EReal) : EReal :=
  (∑ n : Fin 64, w n * tps (∑ k : Fin 4, T n k * queryCol qc k)) + ((v 0 * qc 0 + v 1 * qc 1) + v 2)

/-- The first spelling: rows expanded, weights halved. -/
def outK (tp : Fin 64 → Fin 2 → EReal) (w : Fin 64 → EReal) (v : Fin 3 → EReal) (qc : Fin 2 → EReal) : EReal :=
  tileOut (fun n => ctrlRow (tp n)) (fun n => cHalf * w n) v qc

/-- The query point padded with a one. -/
def pad (qc : Fin 2 → EReal) : Fin 3 → EReal := fun k => match k with
  | ⟨0, _⟩ => qc 0
  | ⟨1, _⟩ => qc 1
  | ⟨2, _⟩ => cOne

/-- The second spelling. -/
def outR (tp : Fin 64 → Fin 2 → EReal) (w : Fin 64 → EReal) (v : Fin 3 → EReal) (qc : Fin 2 → EReal) : EReal :=
  (∑ n : Fin 64, ((cHalf * distR (tp n) qc) * Ideal.log (max (distR (tp n) qc) cEps)) * w n) + ∑ k : Fin 3, pad qc k * v k

/-- The two spellings agree at finite control and query points (the weights may be anything). -/
theorem outK_eq_outR (tp : Fin 64 → Fin 2 → EReal) (w : Fin 64 → EReal) (v : Fin 3 → EReal) (qc : Fin 2 → EReal)
    (ht : ∀ n d, Fin' (tp n d)) (hq : ∀ d, Fin' (qc d)) : outK tp w v qc = outR tp w v qc := by
  unfold outK outR tileOut
  congr 1
  · refine Finset.sum_congr rfl fun n _ => ?_
    have hd : (∑ k : Fin 4, ctrlRow (tp n) k * queryCol qc k) = distR (tp n) qc := dist_eq (tp n) qc (ht n) hq
    rw [hd]
    show (cHalf * w n) * (distR (tp n) qc * Ideal.log (max (distR (tp n) qc) cEps))
      = ((cHalf * distR (tp n) qc) * Ideal.log (max (distR (tp n) qc) cEps)) * w n
    ac_rfl
  · rw [Fin.sum_univ_three]
    show (v 0 * qc 0 + v 1 * qc 1) + v 2 = qc 0 * v 0 + qc 1 * v 1 + cOne * v 2
    rw [cOne_eq, EReal.coe_one, one_mul, mul_comm (qc 0), mul_comm (qc 1)]

end Cert.Spline

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.IdealPayload.lean ====
/-
  One tile's arithmetic at one query. The body's single store holds, at lane l of its row, the spline's first
  spelling of the query whose coordinates are at lane l of the two staged query rows: the staged 64×4 matrix times
  the column [qx, qy, qx²+qy², 1] gives the 64 squared distances, each goes through r²·log(max r² ε), the staged
  weight row times that column of 64 gives the radial sum, and the three staged affine weights give
  v₀·qx + v₁·qy + v₂.
-/
import proofs.«120117_j14087492731389_2_alg».proof.Proof.Gen.KernelIdeal.Skeleton
import proofs.«120117_j14087492731389_2_alg».proof.Proof.SplineLaw
import proofs.«120117_j14087492731389_2_alg».proof.Proof.LibMatmulIx
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Cert.Spline
open Idealize.ShloMosaic Idealize.ShloMosaic.ValueIdx
open Facts₀

/-! ## The layout operations of the body, read at an entry -/

/-- Row 0 of the two query rows. -/
theorem row0_at (x : S2x16384.Idx → EReal) (h : S2x16384.Slices ![0, 0] S1x16384) (l : Fin 16384) :
    extractStridedSlice S1x16384 ![0, 0] x h (ix2 (0 : Fin 1) l) = x (ix2 (0 : Fin 2) l) :=
  slice2_axis0_apply 0 x h (0 : Fin 1) l (0 : Fin 2) rfl
/-- Row 1 of the two query rows. -/
theorem row1_at (x : S2x16384.Idx → EReal) (h : S2x16384.Slices ![1, 0] S1x16384) (l : Fin 16384) :
    extractStridedSlice S1x16384 ![1, 0] x h (ix2 (0 : Fin 1) l) = x (ix2 (1 : Fin 2) l) :=
  slice2_axis0_apply 1 x h (0 : Fin 1) l (1 : Fin 2) rfl

/-- One of four rows, by its number. -/
def pick4 (r0 r1 r2 r3 : S1x16384.Idx → EReal) : Fin 4 → S1x16384.Idx → EReal := fun k => match k with
  | ⟨0, _⟩ => r0
  | ⟨1, _⟩ => r1
  | ⟨2, _⟩ => r2
  | ⟨3, _⟩ => r3

/-- Four rows stacked: row k of the stack is the k-th. -/
theorem stack4_at (r0 r1 r2 r3 : S1x16384.Idx → EReal)
    (h : Shape.Concatenates [S1x16384, S1x16384, S1x16384, S1x16384] S4x16384 0) (k : Fin 4) (l : Fin 16384) :
    concatenate S4x16384 0 [⟨S1x16384, r0⟩, ⟨S1x16384, r1⟩, ⟨S1x16384, r2⟩, ⟨S1x16384, r3⟩] h (ix2 k l)
      = pick4 r0 r1 r2 r3 k (ix2 (0 : Fin 1) l) := by
  match k with
  | ⟨0, _⟩ =>
    exact concatenate_apply_piece (t := S4x16384) (0 : Fin 2) [⟨S1x16384, r0⟩, ⟨S1x16384, r1⟩, ⟨S1x16384, r2⟩, ⟨S1x16384, r3⟩] h
      (ix2 (0 : Fin 4) l) 0 (Nat.lt_of_sub_eq_succ rfl) S1x16384 r0 rfl rfl 0 rfl (ix2 (0 : Fin 1) l)
      (fun b hb => by match b with | ⟨0, _⟩ => exact absurd rfl hb | ⟨1, _⟩ => rfl) rfl
  | ⟨1, _⟩ =>
    exact concatenate_apply_piece (t := S4x16384) (0 : Fin 2) [⟨S1x16384, r0⟩, ⟨S1x16384, r1⟩, ⟨S1x16384, r2⟩, ⟨S1x16384, r3⟩] h
      (ix2 (1 : Fin 4) l) 1 (Nat.lt_of_sub_eq_succ rfl) S1x16384 r1 rfl rfl 1 rfl (ix2 (0 : Fin 1) l)
      (fun b hb => by match b with | ⟨0, _⟩ => exact absurd rfl hb | ⟨1, _⟩ => rfl) rfl
  | ⟨2, _⟩ =>
    exact concatenate_apply_piece (t := S4x16384) (0 : Fin 2) [⟨S1x16384, r0⟩, ⟨S1x16384, r1⟩, ⟨S1x16384, r2⟩, ⟨S1x16384, r3⟩] h
      (ix2 (2 : Fin 4) l) 2 (Nat.lt_of_sub_eq_succ rfl) S1x16384 r2 rfl rfl 2 rfl (ix2 (0 : Fin 1) l)
      (fun b hb => by match b with | ⟨0, _⟩ => exact absurd rfl hb | ⟨1, _⟩ => rfl) rfl
  | ⟨3, _⟩ =>
    exact concatenate_apply_piece (t := S4x16384) (0 : Fin 2) [⟨S1x16384, r0⟩, ⟨S1x16384, r1⟩, ⟨S1x16384, r2⟩, ⟨S1x16384, r3⟩] h
      (ix2 (3 : Fin 4) l) 3 (Nat.lt_of_sub_eq_succ rfl) S1x16384 r3 rfl rfl 3 rfl (ix2 (0 : Fin 1) l)
      (fun b hb => by match b with | ⟨0, _⟩ => exact absurd rfl hb | ⟨1, _⟩ => rfl) rfl

/-- The four stacked rows at lane l are the query's column [qx, qy, qx²+qy², 1]. -/
theorem stacked_query (xq : S2x16384.Idx → EReal) (h0 : S2x16384.Slices ![0, 0] S1x16384) (h1 : S2x16384.Slices ![1, 0] S1x16384)
    (k : Fin 4) (l : Fin 16384) :
    pick4 (extractStridedSlice S1x16384 ![0, 0] xq h0) (extractStridedSlice S1x16384 ![1, 0] xq h1)
        (addf (F := Ideal) (φ := .f32) (mulf (extractStridedSlice S1x16384 ![0, 0] xq h0) (extractStridedSlice S1x16384 ![0, 0] xq h0))
          (mulf (extractStridedSlice S1x16384 ![1, 0] xq h1) (extractStridedSlice S1x16384 ![1, 0] xq h1)))
        (broadcast S1x16384 (Ideal.ofBits .f32 0x3F800000#32)) k (ix2 (0 : Fin 1) l)
      = queryCol (fun d => xq (ix2 d l)) k := by
  match k with
  | ⟨0, _⟩ => exact row0_at xq h0 l
  | ⟨1, _⟩ => exact row1_at xq h1 l
  | ⟨2, _⟩ =>
    show extractStridedSlice S1x16384 ![0, 0] xq h0 (ix2 (0 : Fin 1) l) * extractStridedSlice S1x16384 ![0, 0] xq h0 (ix2 (0 : Fin 1) l)
        + extractStridedSlice S1x16384 ![1, 0] xq h1 (ix2 (0 : Fin 1) l) * extractStridedSlice S1x16384 ![1, 0] xq h1 (ix2 (0 : Fin 1) l)
      = xq (ix2 (0 : Fin 2) l) * xq (ix2 (0 : Fin 2) l) + xq (ix2 (1 : Fin 2) l) * xq (ix2 (1 : Fin 2) l)
    rw [row0_at, row1_at]
  | ⟨3, _⟩ => rfl

/-- One affine weight spread along the row: its value at every lane. -/
theorem spread_at (x : S3x1.Idx → EReal) (o : Nat) (k : Fin 3) (hk : k.val = o + 0) (hs : S3x1.Slices ![o, 0] S1x1)
    (hb : S1x1.Broadcasts S1x16384) (l : Fin 16384) :
    broadcastTo S1x16384 (extractStridedSlice S1x1 ![o, 0] x hs) hb (ix2 (0 : Fin 1) l) = x (ix2 k (0 : Fin 1)) :=
  (broadcastTo_apply _ hb (ix2 (0 : Fin 1) l) (ix2 (0 : Fin 1) (0 : Fin 1)) (fun a => by
    match a with
    | ⟨0, _⟩ => rfl
    | ⟨1, _⟩ => rfl)).trans (slice2_axis0_apply o x hs (0 : Fin 1) (0 : Fin 1) k hk)

/-! ## The two products -/

theorem dist_product (x : FVec Ideal S64x4 .f32) (w : FVec Ideal S4x16384 .f32) (n : Fin 64) (l : Fin 16384) :
    matmul dot_S64x4_S4x16384_S64x16384_1_0_0_1_n_n none x w (constant (F := Ideal) S64x16384 .f32 0x00000000#32) (ix2 n l)
      = ∑ k : Fin 4, x (ix2 n k) * w (ix2 k l) :=
  MatmulIx.matmul_zero_ix2 dot_S64x4_S4x16384_S64x16384_1_0_0_1_n_n rfl rfl
    (fun i q => by
      unfold DotDims.lhsIdx
      rw [dif_neg (show ¬(0 : Fin S64x4.rank) ∈ dot_S64x4_S4x16384_S64x16384_1_0_0_1_n_n.lhsBatch by decide),
        dif_pos (show (0 : Fin S64x4.rank) ∈ dot_S64x4_S4x16384_S64x16384_1_0_0_1_n_n.lhsNonContracting by decide)]
      rfl)
    (fun i q => dot_S64x4_S4x16384_S64x16384_1_0_0_1_n_n.lhsIdx_val_of_single rfl i q)
    (fun i q => dot_S64x4_S4x16384_S64x16384_1_0_0_1_n_n.rhsIdx_val_of_single rfl i q)
    (fun i q => by
      unfold DotDims.rhsIdx
      rw [dif_neg (show ¬(1 : Fin S4x16384.rank) ∈ dot_S64x4_S4x16384_S64x16384_1_0_0_1_n_n.rhsBatch by decide),
        dif_pos (show (1 : Fin S4x16384.rank) ∈ dot_S64x4_S4x16384_S64x16384_1_0_0_1_n_n.rhsNonContracting by decide)]
      rfl)
    none x w n l

theorem weight_product (x : FVec Ideal S1x64 .f32) (w : FVec Ideal S64x16384 .f32) (l : Fin 16384) :
    matmul dot_S1x64_S64x16384_S1x16384_1_0_0_1_n_n none x w (constant (F := Ideal) S1x16384 .f32 0x00000000#32) (ix2 (0 : Fin 1) l)
      = ∑ n : Fin 64, x (ix2 (0 : Fin 1) n) * w (ix2 n l) :=
  MatmulIx.matmul_zero_ix2 dot_S1x64_S64x16384_S1x16384_1_0_0_1_n_n rfl rfl
    (fun i q => by
      unfold DotDims.lhsIdx
      rw [dif_neg (show ¬(0 : Fin S1x64.rank) ∈ dot_S1x64_S64x16384_S1x16384_1_0_0_1_n_n.lhsBatch by decide),
        dif_pos (show (0 : Fin S1x64.rank) ∈ dot_S1x64_S64x16384_S1x16384_1_0_0_1_n_n.lhsNonContracting by decide)]
      rfl)
    (fun i q => dot_S1x64_S64x16384_S1x16384_1_0_0_1_n_n.lhsIdx_val_of_single rfl i q)
    (fun i q => dot_S1x64_S64x16384_S1x16384_1_0_0_1_n_n.rhsIdx_val_of_single rfl i q)
    (fun i q => by
      unfold DotDims.rhsIdx
      rw [dif_neg (show ¬(1 : Fin S64x16384.rank) ∈ dot_S1x64_S64x16384_S1x16384_1_0_0_1_n_n.rhsBatch by decide),
        dif_pos (show (1 : Fin S64x16384.rank) ∈ dot_S1x64_S64x16384_S1x16384_1_0_0_1_n_n.rhsNonContracting by decide)]
      rfl)
    none x w (0 : Fin 1) l

theorem log_at {s : Shape} (v : FVec Ideal s .f32) (i : s.Idx) : (log v : FVec Ideal s .f32) i = Ideal.log (v i) := rfl

/-! ## The store's value at lane l -/

theorem payload_at (xq : Vec Ideal S2x16384 .f32) (xT : Vec Ideal S64x4 .f32) (xw : Vec Ideal S1x64 .f32) (xv : Vec Ideal S3x1 .f32)
    (l : Fin 16384) :
    k0_pay1 (F := Ideal) xq xT xw xv (ix2 (0 : Fin 1) l)
      = tileOut (fun n k => xT (ix2 n k)) (fun n => xw (ix2 (0 : Fin 1) n)) (fun k => xv (ix2 k (0 : Fin 1))) (fun d => xq (ix2 d l)) := by
  unfold k0_pay1
  simp only [shapeCast_self, addf_apply, weight_product, mulf_apply, log_at, maximumf_apply, dist_product, stack4_at,
    broadcast_apply, spread_at _ 0 (0 : Fin 3) rfl, spread_at _ 1 (1 : Fin 3) rfl, spread_at _ 2 (2 : Fin 3) rfl, row0_at, row1_at,
    Ideal.ofBits_def, stacked_query]
  rfl

end Cert.KernelIdeal.Payload

end
-- ==== Proof.LibConcat.lean ====
/-
  A concatenation of `[n, ·]` arrays along their columns read at the entry `(e, c)`: the piece whose span of columns
  holds `c` (the widths of the pieces before it add up to `pre`, and `c = pre + j` with `j` inside the piece), read
  at `(e, j)`.
-/
import Idealize.ShloMosaic.Lib.Pipeline.Value
import Idealize.ShloMosaic.Lib.ValueIdx

namespace ConcatCols

open Idealize.ShloMosaic Idealize.ShloMosaic.ValueIdx

/-- Piece `k` of a column concatenation, at `(e, pre + j)`, is the piece at `(e, j)`. -/
theorem concat_cols_apply {α : Type} {n c b' : ℕ} (xs : List ((s : Shape) × (s.Idx → α)))
    (h : Shape.Concatenates (xs.map (·.1)) (⟨2, ![n, c]⟩ : Shape) (1 : Fin 2)) (e : Fin n) (kk : Fin c)
    (k : ℕ) (hk : k < xs.length) (x₁ : (⟨2, ![n, b']⟩ : Shape).Idx → α) (hxk : xs[k] = ⟨(⟨2, ![n, b']⟩ : Shape), x₁⟩)
    (pre : ℕ)
    (hpre : (((xs.take k).map (·.1)).map fun s => if h : s.rank = (⟨2, ![n, c]⟩ : Shape).rank then s.size ((1 : Fin 2).cast h.symm) else 0).sum = pre)
    (j : Fin b') (hj : pre + j.val = kk.val) :
    concatenate (⟨2, ![n, c]⟩ : Shape) (1 : Fin 2) xs h (ix2 e kk) = x₁ (ix2 e j) :=
  concatenate_apply_piece (t := (⟨2, ![n, c]⟩ : Shape)) (1 : Fin 2) xs h (ix2 e kk) k hk (⟨2, ![n, b']⟩ : Shape) x₁ hxk rfl pre hpre (ix2 e j)
    (fun b hb => by
      match b with
      | ⟨0, _⟩ => rfl
      | ⟨1, _⟩ => exact absurd rfl hb)
    (show pre + j.val = kk.val from hj)

end ConcatCols
-- ==== Proof.IdealOperands.lean ====
/-
  What the launch finds in its four operands, entry by entry, in terms of the program's arguments.
  The host lines before the launch build: the query points transposed to two long rows (row d, column q is
  coordinate d of query q); the 64×4 matrix whose row n is [−2·tx, −2·ty, 1, tx²+ty²] of control point n (four
  columns laid side by side); the row of the 64 weights each times one half; and the three affine weights.
-/
import proofs.«120117_j14087492731389_2_alg».proof.Proof.IdealAround
import proofs.«120117_j14087492731389_2_alg».proof.Proof.SplineLaw
import proofs.«120117_j14087492731389_2_alg».proof.Proof.LibConcat
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Operands

open Cert.KernelIdeal Cert.KernelIdeal.Gen Cert.KernelIdeal.Around Cert.Spline
open Idealize.ShloMosaic Idealize.ShloMosaic.TcCoe Idealize.SL.Sem Idealize.ShloMosaic.StableHlo Idealize.ShloMosaic.ValueIdx

variable (m : (ℓ : Loc nD τ sig) → Buf (Elt Ideal) ℓ)

/-! ## Small layout steps at an entry -/

/-- A [64,1] column read as a vector. -/
theorem col_as_vec {α : Type} (Y : S64x1.Idx → α) (h : S64x1.ShapeCasts S64) (n : Fin 64) :
    shapeCast S64 Y h (ix1 n) = Y (ix2 n (0 : Fin 1)) :=
  shapeCast_apply Y h (ix1 n) (ix2 n (0 : Fin 1)) (by
    rw [Shape.rowMajor_val_two, Shape.rowMajor_val_one]
    show n.val * 1 + 0 = n.val
    omega)

/-- A vector laid out as a [64,1] column. -/
theorem vec_as_col {α : Type} (B : S64.Idx → α) (h : S64.BroadcastsInDim S64x1 (![0] : Fin 1 → Fin S64x1.rank)) (n : Fin 64) :
    broadcastInDim S64x1 ![0] h B (ix2 n (0 : Fin 1)) = B (ix1 n) :=
  broadcastInDim_apply _ h B (ix2 n (0 : Fin 1)) (ix1 n) (fun a => match a with
    | ⟨0, _⟩ => by show n.val = if (64 : Nat) = 1 then 0 else n.val; rw [if_neg (by decide)])

/-- A number spread over a vector. -/
theorem splat_vec {α : Type} (x : S_.Idx → α) (h : S_.BroadcastsInDim S64 (![] : Fin 0 → Fin S64.rank)) (n : Fin 64) :
    broadcastInDim S64 ![] h x (ix1 n) = x ix0 :=
  broadcastInDim_apply _ h x (ix1 n) ix0 (fun a => a.elim0)

/-- The [1,64,1] weights read as a vector. -/
theorem weights_as_vec {α : Type} (a1 : S1x64x1.Idx → α) (h : S1x64x1.ShapeCasts S64) (n : Fin 64) :
    shapeCast S64 a1 h (ix1 n) = a1 (ix3 (0 : Fin 1) n (0 : Fin 1)) :=
  shapeCast_apply a1 h (ix1 n) (ix3 (0 : Fin 1) n (0 : Fin 1)) (by
    rw [Shape.rowMajor_val_three, Shape.rowMajor_val_one]
    show (0 * 64 + n.val) * 1 + 0 = n.val
    omega)

/-! ## The control points' coordinate vectors -/

/-- Coordinate d of the 64 control points as a vector. -/
def coordVec (a0 : S1x64x2.Idx → EReal) (o : Nat) (hs : S64x2.Slices ![0, o] S64x1) : S64.Idx → EReal :=
  shapeCast S64 (extractStridedSlice S64x1 ![0, o] (shapeCast S64x2 a0 shapeCasts_S1x64x2_S64x2) hs) shapeCasts_S64x1_S64

theorem coordVec_at (a0 : S1x64x2.Idx → EReal) (o : Nat) (hs : S64x2.Slices ![0, o] S64x1) (d : Fin 2) (hd : d.val = o + 0) (n : Fin 64) :
    coordVec a0 o hs (ix1 n) = a0 (ix3 (0 : Fin 1) n d) := by
  unfold coordVec
  rw [col_as_vec, slice2_axis1_apply o _ hs n (0 : Fin 1) d hd, shapeCast_1ab_ab_apply]

/-! ## The operands as the launch finds them -/

/-- The query rows: the argument reshaped and transposed. -/
theorem queries_eq (c : Dev nD) : (entry m c main_v24 : S2x4194304.Idx → EReal)
    = transpose S2x4194304 [1, 0] (shapeCast S4194304x2 (m ((c : Thread nD τ).loc main_arg3)) shapeCasts_S1x4194304x2_S4194304x2)
        transposes_S4194304x2_S2x4194304_1_0 := by
  show StableHlo.after hostOps0 (fun b => m (c, b)) (Proc.devRef .tc main_v24) = _
  after_results
  all_goals rfl

/-- Row d, column q of the query rows is coordinate d of query q. -/
theorem queries_at (c : Dev nD) (d : Fin 2) (q : Fin 4194304) :
    (entry m c main_v24 : S2x4194304.Idx → EReal) (ix2 d q) = m ((c : Thread nD τ).loc main_arg3) (ix3 (0 : Fin 1) q d) := by
  rw [queries_eq, transpose_ix2_apply, shapeCast_1ab_ab_apply]

/-- The affine weights: the argument reshaped. -/
theorem affine_eq (c : Dev nD) : (entry m c main_v22 : S3x1.Idx → EReal)
    = shapeCast S3x1 (m ((c : Thread nD τ).loc main_arg2)) shapeCasts_S1x3x1_S3x1 := by
  show StableHlo.after hostOps0 (fun b => m (c, b)) (Proc.devRef .tc main_v22) = _
  after_results
  all_goals rfl

theorem affine_at (c : Dev nD) (k : Fin 3) :
    (entry m c main_v22 : S3x1.Idx → EReal) (ix2 k (0 : Fin 1)) = m ((c : Thread nD τ).loc main_arg2) (ix3 (0 : Fin 1) k (0 : Fin 1)) := by
  rw [affine_eq, shapeCast_1ab_ab_apply]

/-- The weight row: one half times each weight. -/
theorem halved_eq (c : Dev nD) : (entry m c main_v21 : S1x64.Idx → EReal)
    = shapeCast S1x64 (mulf (F := Ideal) (φ := .f32) (broadcastInDim S64 ![] bcast_S_S64 (constant (F := Ideal) S_ .f32 0x3F000000#32))
        (shapeCast S64 (m ((c : Thread nD τ).loc main_arg1)) shapeCasts_S1x64x1_S64)) shapeCasts_S64_S1x64 := by
  show StableHlo.after hostOps0 (fun b => m (c, b)) (Proc.devRef .tc main_v21) = _
  after_results
  all_goals rfl

theorem halved_at (c : Dev nD) (n : Fin 64) :
    (entry m c main_v21 : S1x64.Idx → EReal) (ix2 (0 : Fin 1) n) = cHalf * m ((c : Thread nD τ).loc main_arg1) (ix3 (0 : Fin 1) n (0 : Fin 1)) := by
  rw [halved_eq, shapeCast_a_1a_apply, mulf_apply, splat_vec, weights_as_vec]
  rfl

/-- The four columns of the control-point matrix. -/
theorem col0_eq (c : Dev nD) : (entry m c main_v13 : S64x1.Idx → EReal)
    = broadcastInDim S64x1 ![0] bcast_S64_S64x1_0 (mulf (F := Ideal) (φ := .f32)
        (broadcastInDim S64 ![] bcast_S_S64 (constant (F := Ideal) S_ .f32 0xC0000000#32))
        (coordVec (m ((c : Thread nD τ).loc main_arg0)) 0 slices_S64x2_S64x1_0_0)) := by
  show StableHlo.after hostOps0 (fun b => m (c, b)) (Proc.devRef .tc main_v13) = _
  after_results
  all_goals rfl
theorem col1_eq (c : Dev nD) : (entry m c main_v14 : S64x1.Idx → EReal)
    = broadcastInDim S64x1 ![0] bcast_S64_S64x1_0 (mulf (F := Ideal) (φ := .f32)
        (broadcastInDim S64 ![] bcast_S_S64 (constant (F := Ideal) S_ .f32 0xC0000000#32))
        (coordVec (m ((c : Thread nD τ).loc main_arg0)) 1 slices_S64x2_S64x1_0_1)) := by
  show StableHlo.after hostOps0 (fun b => m (c, b)) (Proc.devRef .tc main_v14) = _
  after_results
  all_goals rfl
theorem col2_eq (c : Dev nD) : (entry m c main_v15 : S64x1.Idx → EReal)
    = broadcastInDim S64x1 ![0] bcast_S64_S64x1_0
        (broadcastInDim S64 ![] bcast_S_S64 (constant (F := Ideal) S_ .f32 0x3F800000#32)) := by
  show StableHlo.after hostOps0 (fun b => m (c, b)) (Proc.devRef .tc main_v15) = _
  after_results
  all_goals rfl
theorem col3_eq (c : Dev nD) : (entry m c main_v16 : S64x1.Idx → EReal)
    = broadcastInDim S64x1 ![0] bcast_S64_S64x1_0 (addf (F := Ideal) (φ := .f32)
        (mulf (coordVec (m ((c : Thread nD τ).loc main_arg0)) 0 slices_S64x2_S64x1_0_0) (coordVec (m ((c : Thread nD τ).loc main_arg0)) 0 slices_S64x2_S64x1_0_0))
        (mulf (coordVec (m ((c : Thread nD τ).loc main_arg0)) 1 slices_S64x2_S64x1_0_1) (coordVec (m ((c : Thread nD τ).loc main_arg0)) 1 slices_S64x2_S64x1_0_1))) := by
  show StableHlo.after hostOps0 (fun b => m (c, b)) (Proc.devRef .tc main_v16) = _
  after_results
  all_goals rfl

/-- Control point n's two coordinates. -/
abbrev ctrlPt (c : Dev nD) (n : Fin 64) : Fin 2 → EReal := fun d => m ((c : Thread nD τ).loc main_arg0) (ix3 (0 : Fin 1) n d)

theorem col0_at (c : Dev nD) (n : Fin 64) :
    (entry m c main_v13 : S64x1.Idx → EReal) (ix2 n (0 : Fin 1)) = ctrlRow (ctrlPt m c n) 0 := by
  rw [col0_eq, vec_as_col, mulf_apply, splat_vec, coordVec_at _ 0 _ (0 : Fin 2) rfl]
  rfl
theorem col1_at (c : Dev nD) (n : Fin 64) :
    (entry m c main_v14 : S64x1.Idx → EReal) (ix2 n (0 : Fin 1)) = ctrlRow (ctrlPt m c n) 1 := by
  rw [col1_eq, vec_as_col, mulf_apply, splat_vec, coordVec_at _ 1 _ (1 : Fin 2) rfl]
  rfl
theorem col2_at (c : Dev nD) (n : Fin 64) :
    (entry m c main_v15 : S64x1.Idx → EReal) (ix2 n (0 : Fin 1)) = ctrlRow (ctrlPt m c n) 2 := by
  rw [col2_eq, vec_as_col, splat_vec]
  rfl
theorem col3_at (c : Dev nD) (n : Fin 64) :
    (entry m c main_v16 : S64x1.Idx → EReal) (ix2 n (0 : Fin 1)) = ctrlRow (ctrlPt m c n) 3 := by
  rw [col3_eq, vec_as_col, addf_apply, mulf_apply, mulf_apply, coordVec_at _ 0 _ (0 : Fin 2) rfl, coordVec_at _ 1 _ (1 : Fin 2) rfl]
  rfl

set_option maxHeartbeats 4000000 in
/-- The matrix is its four columns side by side. -/
theorem matrix_eq (c : Dev nD) : (entry m c main_v17 : S64x4.Idx → EReal)
    = concatenate S64x4 1 [⟨S64x1, (entry m c main_v13 : S64x1.Idx → EReal)⟩, ⟨S64x1, (entry m c main_v14 : S64x1.Idx → EReal)⟩,
        ⟨S64x1, (entry m c main_v15 : S64x1.Idx → EReal)⟩, ⟨S64x1, (entry m c main_v16 : S64x1.Idx → EReal)⟩]
        concatenates_S64x1_S64x1_S64x1_S64x1_S64x4_d1 := by
  show StableHlo.after hostOps0 (fun b => m (c, b)) (Proc.devRef .tc main_v17)
    = concatenate S64x4 1 [⟨S64x1, StableHlo.after hostOps0 (fun b => m (c, b)) (Proc.devRef .tc main_v13)⟩,
        ⟨S64x1, StableHlo.after hostOps0 (fun b => m (c, b)) (Proc.devRef .tc main_v14)⟩,
        ⟨S64x1, StableHlo.after hostOps0 (fun b => m (c, b)) (Proc.devRef .tc main_v15)⟩,
        ⟨S64x1, StableHlo.after hostOps0 (fun b => m (c, b)) (Proc.devRef .tc main_v16)⟩] concatenates_S64x1_S64x1_S64x1_S64x1_S64x4_d1
  simp only [after_cons, after_nil]
  repeat (first
    | (rw [nullary_result_ne]; rotate_left; decide)
    | (rw [unary_result_ne]; rotate_left; decide)
    | (rw [binary_result_ne]; rotate_left; decide)
    | (rw [reshape_result_ne]; rotate_left; decide)
    | (rw [nary_result_ne]; rotate_left; decide))
  rw [nary4_result]
  rfl

/-- Row n of the matrix is control point n's row [−2tx, −2ty, 1, tx²+ty²]. -/
theorem matrix_at (c : Dev nD) (n : Fin 64) (k : Fin 4) :
    (entry m c main_v17 : S64x4.Idx → EReal) (ix2 n k) = ctrlRow (ctrlPt m c n) k := by
  rw [matrix_eq]
  match k with
  | ⟨0, _⟩ =>
    exact (ConcatCols.concat_cols_apply (n := 64) (c := 4) (b' := 1)
      [⟨S64x1, (entry m c main_v13 : S64x1.Idx → EReal)⟩, ⟨S64x1, (entry m c main_v14 : S64x1.Idx → EReal)⟩, ⟨S64x1, (entry m c main_v15 : S64x1.Idx → EReal)⟩, ⟨S64x1, (entry m c main_v16 : S64x1.Idx → EReal)⟩]
      concatenates_S64x1_S64x1_S64x1_S64x1_S64x4_d1 n (0 : Fin 4) 0 (Nat.lt_of_sub_eq_succ rfl)
      (entry m c main_v13 : S64x1.Idx → EReal) rfl 0 rfl (0 : Fin 1) rfl).trans (col0_at m c n)
  | ⟨1, _⟩ =>
    exact (ConcatCols.concat_cols_apply (n := 64) (c := 4) (b' := 1)
      [⟨S64x1, (entry m c main_v13 : S64x1.Idx → EReal)⟩, ⟨S64x1, (entry m c main_v14 : S64x1.Idx → EReal)⟩, ⟨S64x1, (entry m c main_v15 : S64x1.Idx → EReal)⟩, ⟨S64x1, (entry m c main_v16 : S64x1.Idx → EReal)⟩]
      concatenates_S64x1_S64x1_S64x1_S64x1_S64x4_d1 n (1 : Fin 4) 1 (Nat.lt_of_sub_eq_succ rfl)
      (entry m c main_v14 : S64x1.Idx → EReal) rfl 1 rfl (0 : Fin 1) rfl).trans (col1_at m c n)
  | ⟨2, _⟩ =>
    exact (ConcatCols.concat_cols_apply (n := 64) (c := 4) (b' := 1)
      [⟨S64x1, (entry m c main_v13 : S64x1.Idx → EReal)⟩, ⟨S64x1, (entry m c main_v14 : S64x1.Idx → EReal)⟩, ⟨S64x1, (entry m c main_v15 : S64x1.Idx → EReal)⟩, ⟨S64x1, (entry m c main_v16 : S64x1.Idx → EReal)⟩]
      concatenates_S64x1_S64x1_S64x1_S64x1_S64x4_d1 n (2 : Fin 4) 2 (Nat.lt_of_sub_eq_succ rfl)
      (entry m c main_v15 : S64x1.Idx → EReal) rfl 2 rfl (0 : Fin 1) rfl).trans (col2_at m c n)
  | ⟨3, _⟩ =>
    exact (ConcatCols.concat_cols_apply (n := 64) (c := 4) (b' := 1)
      [⟨S64x1, (entry m c main_v13 : S64x1.Idx → EReal)⟩, ⟨S64x1, (entry m c main_v14 : S64x1.Idx → EReal)⟩, ⟨S64x1, (entry m c main_v15 : S64x1.Idx → EReal)⟩, ⟨S64x1, (entry m c main_v16 : S64x1.Idx → EReal)⟩]
      concatenates_S64x1_S64x1_S64x1_S64x1_S64x4_d1 n (3 : Fin 4) 3 (Nat.lt_of_sub_eq_succ rfl)
      (entry m c main_v16 : S64x1.Idx → EReal) rfl 3 rfl (0 : Fin 1) rfl).trans (col3_at m c n)

end Cert.KernelIdeal.Operands

end
-- ==== Proof.IdealRow.lean ====
/-
  The result row after the launch, as one function of the operands the launch found, and then of the arguments.
  Tile t writes back columns 16384·t … 16384·t + 16383 of the row; what it writes at lane l is the spline's first
  spelling at the query in column 16384·t + l of the query rows (the query tile moves with the result tile; the
  matrix, the weight row and the affine weights are the same whole arrays at every tile). The 256 tiles cover
  every column, so the row ends as that function everywhere; and with the operands read back to the arguments,
  column q is the first spelling at query q, the control points, the weights and the affine weights.
-/
import proofs.«120117_j14087492731389_2_alg».proof.Proof.IdealTile
import proofs.«120117_j14087492731389_2_alg».proof.Proof.IdealPayload
import proofs.«120117_j14087492731389_2_alg».proof.Proof.IdealOperands

set_option maxRecDepth 16384

noncomputable section

namespace Cert.KernelIdeal.Row

open Cert.KernelIdeal Cert.KernelIdeal.Gen Cert.KernelIdeal.Around Cert.KernelIdeal.Tile Cert.KernelIdeal.Payload
  Cert.KernelIdeal.Operands Cert.Spline
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem zero_off : (![0, 0] : Fin 2 → Nat) = fun _ => 0 := funext fun a => by fin_cases a <;> rfl

/-- The column of an entry of the result row. -/
def lane (i : S1x4194304.Idx) : Fin 4194304 := ⟨(i 1).val, (i 1).isLt⟩

/-- The whole result row from the four operands: at column q, what a tile computes from the matrix, the weight row,
    the affine weights and column q of the query rows. -/
def wholeRow (aQ : S2x4194304.Idx → EReal) (aT : S64x4.Idx → EReal) (aW : S1x64.Idx → EReal) (aV : S3x1.Idx → EReal) :
    S1x4194304.Idx → EReal := fun i =>
  tileOut (fun n k => aT (ix2 n k)) (fun n => aW (ix2 (0 : Fin 1) n)) (fun k => aV (ix2 k (0 : Fin 1))) (fun d => aQ (ix2 d (lane i)))

/-- The tiles' positions, decided over the 256 grid points: the query tile sits at the result tile's columns, the three
    small operands are whole, the result tile of point t is the t-th. -/
theorem tile_positions : ∀ t : Fin cfg0.N,
    win0_0.index t (0 : Fin 2) = 0 ∧ win0_0.index t (1 : Fin 2) = win0_4.index t (1 : Fin 2)
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-- What tile t writes back is its block of the whole row. -/
theorem written_back (c : Dev nD) (t : Fin cfg0.N) :
    (data m 0 c).flushed 4 t = ((cfg0.win 4).blk t).view.read (Elt Ideal)
      (wholeRow (entry m c main_v24) (entry m c main_v17) (entry m c main_v21) (entry m c main_v22)) := by
  show (cfg0.win 4).cut (grid0.coords t) ((data m 0 c).after 4 t) = _
  rw [after_4]
  unfold resultRow
  rw [View.canon_unit_zero zero_off]
  simp only [View.ld_unit_zero (S := S2x16384) zero_off, View.ld_unit_zero (S := S64x4) zero_off,
    View.ld_unit_zero (S := S1x64) zero_off, View.ld_unit_zero (S := S3x1) zero_off]
  obtain ⟨e00, e01, e10, e11, e20, e21, e30, e31, e40, e41⟩ := tile_positions t
  funext j
  obtain ⟨p, l, rfl⟩ : ∃ (p : Fin 1) (l : Fin 16384), j = ix2 p l := ⟨j 0, j 1, eq_ix2 j⟩
  obtain rfl : p = 0 := Subsingleton.elim _ _
  refine (payload_at (tile m c 0 t) (tile m c 1 t) (tile m c 2 t) (tile m c 3 t) l).trans ?_
  show _ = wholeRow (entry m c main_v24) (entry m c main_v17) (entry m c main_v21) (entry m c main_v22)
    (((cfg0.win 4).blk t).view.emb (ix2 (0 : Fin 1) l))
  unfold wholeRow
  have hT : (fun (n : Fin 64) (k : Fin 4) => tile m c 1 t (ix2 n k)) = fun n k => (entry m c main_v17 : S64x4.Idx → EReal) (ix2 n k) := by
    funext n k
    show (entry m c main_v17 : S64x4.Idx → EReal) (((cfg0.win 1).blk t).view.emb (ix2 n k)) = _
    refine congrArg _ (funext fun a => Fin.ext ?_)
    match a with
    | ⟨0, _⟩ => show win0_1.index t (0 : Fin 2) * 64 + 1 * n.val = n.val; omega
    | ⟨1, _⟩ => show win0_1.index t (1 : Fin 2) * 4 + 1 * k.val = k.val; omega
  have hW : (fun (n : Fin 64) => tile m c 2 t (ix2 (0 : Fin 1) n)) = fun n => (entry m c main_v21 : S1x64.Idx → EReal) (ix2 (0 : Fin 1) n) := by
    funext n
    show (entry m c main_v21 : S1x64.Idx → EReal) (((cfg0.win 2).blk t).view.emb (ix2 (0 : Fin 1) n)) = _
    refine congrArg _ (funext fun a => Fin.ext ?_)
    match a with
    | ⟨0, _⟩ => show win0_2.index t (0 : Fin 2) * 1 + 1 * 0 = 0; omega
    | ⟨1, _⟩ => show win0_2.index t (1 : Fin 2) * 64 + 1 * n.val = n.val; omega
  have hV : (fun (k : Fin 3) => tile m c 3 t (ix2 k (0 : Fin 1))) = fun k => (entry m c main_v22 : S3x1.Idx → EReal) (ix2 k (0 : Fin 1)) := by
    funext k
    show (entry m c main_v22 : S3x1.Idx → EReal) (((cfg0.win 3).blk t).view.emb (ix2 k (0 : Fin 1))) = _
    refine congrArg _ (funext fun a => Fin.ext ?_)
    match a with
    | ⟨0, _⟩ => show win0_3.index t (0 : Fin 2) * 3 + 1 * k.val = k.val; omega
    | ⟨1, _⟩ => show win0_3.index t (1 : Fin 2) * 1 + 1 * 0 = 0; omega
  have hQ : (fun (d : Fin 2) => tile m c 0 t (ix2 d l))
      = fun d => (entry m c main_v24 : S2x4194304.Idx → EReal) (ix2 d (lane (((cfg0.win 4).blk t).view.emb (ix2 (0 : Fin 1) l)))) := by
    funext d
    show (entry m c main_v24 : S2x4194304.Idx → EReal) (((cfg0.win 0).blk t).view.emb (ix2 d l)) = _
    refine congrArg _ (funext fun a => Fin.ext ?_)
    match a with
    | ⟨0, _⟩ => show win0_0.index t (0 : Fin 2) * 2 + 1 * d.val = d.val; omega
    | ⟨1, _⟩ => show win0_0.index t (1 : Fin 2) * 16384 + 1 * l.val = win0_4.index t (1 : Fin 2) * 16384 + 1 * l.val; omega
  rw [hT, hW, hV, hQ]

/-- An entry of the row is in tile t's block iff each coordinate is in the block's range. -/
theorem in_block (t : Fin cfg0.N) (i : S1x4194304.Idx) :
    i ∈ ((cfg0.win 4).blk t).view.set ↔ ∀ a : Fin 2, win0_4.index t a * S1x16384.size a ≤ (i a).val ∧ (i a).val < win0_4.index t a * S1x16384.size a + S1x16384.size a := by
  show i ∈ ((View.whole main_v25).slice (win0_4.rect t)).set ↔ _
  rw [View.set_slice_whole, Rect.mem_set_unit]
  exact Iff.rfl

/-- Column q of the row is written back by tile q / 16384. -/
theorem tiles_cover (i : S1x4194304.Idx) :
    ∃ t : Fin cfg0.N, (cfg0.win 4).flush t = true ∧ i ∈ ((cfg0.win 4).blk t).view.set := by
  have hi0 : (i 0).val < 1 := (i 0).isLt
  have hi1 : (i 1).val < 4194304 := (i 1).isLt
  have hN : grid0.N = 256 := N_0
  have ht : (i 1).val / 16384 < grid0.N := by omega
  obtain ⟨-, -, -, -, -, -, -, -, e40, e41⟩ := tile_positions ⟨(i 1).val / 16384, ht⟩
  have e41' : win0_4.index ⟨(i 1).val / 16384, ht⟩ (1 : Fin 2) = (i 1).val / 16384 := e41
  refine ⟨⟨(i 1).val / 16384, ht⟩, flush0_4 _, ?_⟩
  rw [in_block]
  intro a
  match a with
  | ⟨0, _⟩ =>
    show win0_4.index ⟨(i 1).val / 16384, ht⟩ (0 : Fin 2) * 1 ≤ (i 0).val ∧ (i 0).val < win0_4.index ⟨(i 1).val / 16384, ht⟩ (0 : Fin 2) * 1 + 1
    omega
  | ⟨1, _⟩ =>
    show win0_4.index ⟨(i 1).val / 16384, ht⟩ (1 : Fin 2) * 16384 ≤ (i 1).val ∧ (i 1).val < win0_4.index ⟨(i 1).val / 16384, ht⟩ (1 : Fin 2) * 16384 + 16384
    omega

/-- THE RESULT ROW after the launch is the whole-row function of the operands. -/
theorem row_after (c : Dev nD) : (data m 0 c).arrAt 4 cfg0.N
    = wholeRow (entry m c main_v24) (entry m c main_v17) (entry m c main_v21) (entry m c main_v22) :=
  (data m 0 c).arrAt_eq_of_cover 4 _ (fun t _ => written_back m c t) tiles_cover

theorem lane_col (q : Fin 4194304) : lane (ix2 (0 : Fin 1) q) = q := rfl

/-- Column q of the whole row, for operands that are what the host lines make of the arguments: the spline's first
    spelling at query q. -/
theorem wholeRow_col (aQ : S2x4194304.Idx → EReal) (aT : S64x4.Idx → EReal) (aW : S1x64.Idx → EReal) (aV : S3x1.Idx → EReal)
    (tp : Fin 64 → Fin 2 → EReal) (w : Fin 64 → EReal) (v : Fin 3 → EReal) (qc : Fin 2 → EReal) (q : Fin 4194304)
    (hT : ∀ n k, aT (ix2 n k) = ctrlRow (tp n) k) (hW : ∀ n, aW (ix2 (0 : Fin 1) n) = cHalf * w n)
    (hV : ∀ k, aV (ix2 k (0 : Fin 1)) = v k) (hQ : ∀ d, aQ (ix2 d q) = qc d) :
    wholeRow aQ aT aW aV (ix2 (0 : Fin 1) q) = outK tp w v qc := by
  unfold wholeRow outK
  rw [lane_col]
  simp only [hT, hW, hV, hQ]

/-- Column q of the result row is the spline's first spelling at query q of the ARGUMENTS. -/
theorem row_at (c : Dev nD) (q : Fin 4194304) :
    wholeRow (entry m c main_v24) (entry m c main_v17) (entry m c main_v21) (entry m c main_v22) (ix2 (0 : Fin 1) q)
      = outK (fun n d => m ((c : Thread nD τ).loc main_arg0) (ix3 (0 : Fin 1) n d))
          (fun n => m ((c : Thread nD τ).loc main_arg1) (ix3 (0 : Fin 1) n (0 : Fin 1)))
          (fun k => m ((c : Thread nD τ).loc main_arg2) (ix3 (0 : Fin 1) k (0 : Fin 1)))
          (fun d => m ((c : Thread nD τ).loc main_arg3) (ix3 (0 : Fin 1) q d)) :=
  wholeRow_col _ _ _ _ _ _ _ _ q (fun n k => matrix_at m c n k) (fun n => halved_at m c n) (fun k => affine_at m c k)
    (fun d => queries_at m c d q)

end Cert.KernelIdeal.Row

end
-- ==== Proof.IdealImage.lean ====
/-
  The image. After the launch one host line reshapes the result row [1, 4194304] to the image [1, 2048, 2048, 1]:
  pixel (0, y, x, 0) is column 2048·y + x of the row. So the program ends with the image at that reshape of the
  whole-row function, and with its arguments as launched.
-/
import proofs.«120117_j14087492731389_2_alg».proof.Proof.IdealRow

set_option maxRecDepth 16384

noncomputable section

namespace Cert.KernelIdeal.Image

open Cert.KernelIdeal Cert.KernelIdeal.Gen Cert.KernelIdeal.Around Cert.KernelIdeal.Tile Cert.KernelIdeal.Row Cert.Spline
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- The image as the reshape leaves it: the reshape of the result row the launch left. -/
theorem image_after (c : Dev nD) :
    Pipeline.afterTail₀ cfgs (data m) 0 (entry0 m) [hostOps1] c main_v26
      = shapeCast S1x2048x2048x1 ((data m 0 c).arrAt 4 cfg0.N) shapeCasts_S1x4194304_S1x2048x2048x1 := by
  have hw : Pipeline.withArrays spec0 c (entry0 m c) (fun w => (data m 0 c).arrAt w cfg0.N) (Proc.devRef .tc main_v25)
      = (data m 0 c).arrAt 4 cfg0.N :=
    Pipeline.withArrays_arr spec0 launch0.win.arr_inj c (entry0 m c) (fun w => (data m 0 c).arrAt w cfg0.N) 4
  unfold Pipeline.afterTail₀
  show StableHlo.after hostOps1 _ (Proc.devRef .tc main_v26) = _
  after_results
  rw [hw]
  rfl

/-- THE RUN OF THE IDEALIZED KERNEL: it terminates, faults nowhere, ends with the image at the reshape of the whole-row
    function of the operands the launch found, and with its four arguments as launched. -/
theorem run : θ_run defs (onTc (τ := τ) (main (F := Ideal))) ⟨m, fun _ => 0, ρ⟩ (fun r => ∀ c : Dev nD,
      r.2.mem ((c.tc : Thread nD τ).loc main_v26)
        = shapeCast S1x2048x2048x1 (wholeRow (entry m c main_v24) (entry m c main_v17) (entry m c main_v21) (entry m c main_v22))
            shapeCasts_S1x4194304_S1x2048x2048x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v26 (Pipeline.mem_restRefs_of main_v26 (by decide) (by decide))).trans
        ((image_after m c).trans (by rw [row_after])),
     ((h c).2 main_arg0 (Pipeline.mem_restRefs_of main_arg0 (by decide) (by decide))).trans
        ((exit_of_other m (data m) c main_arg0 (by decide) (by decide)).trans (entry_arg0 m c)),
     ((h c).2 main_arg1 (Pipeline.mem_restRefs_of main_arg1 (by decide) (by decide))).trans
        ((exit_of_other m (data m) c main_arg1 (by decide) (by decide)).trans (entry_arg1 m c)),
     ((h c).2 main_arg2 (Pipeline.mem_restRefs_of main_arg2 (by decide) (by decide))).trans
        ((exit_of_other m (data m) c main_arg2 (by decide) (by decide)).trans (entry_arg2 m c)),
     ((h c).2 main_arg3 (Pipeline.mem_restRefs_of main_arg3 (by decide) (by decide))).trans
        ((exit_of_other m (data m) c main_arg3 (by decide) (by decide)).trans (entry_arg3 m c))⟩) (run_main m ρ)

end Cert.KernelIdeal.Image

end
-- ==== Proof.RefRows.lean ====
/-
  The reference, row by row. Its last stage before the reshape to the image is a [1, 4194304, 1] column; the entry
  for query q is the spline's second spelling of that query point, the 64 control points, their weights and the
  three affine weights: the squared distance is (|q|² − 2 q·t) + |t|² with each norm a sum from zero, the radial
  term ½·r²·log(max r² ε) times the weight summed over the control points, and the affine term the inner product
  of the query point padded with a one and the affine weights.
-/
import proofs.«120117_j14087492731389_2_alg».proof.Proof.Gen.ReferenceIdeal.Read
import proofs.«120117_j14087492731389_2_alg».proof.Proof.SplineLaw
import Idealize.ShloMosaic.Lib.ValueIdx
import Idealize.ShloMosaic.Lib.Pipeline.Value

noncomputable section

namespace Cert.ReferenceIdeal.Rows

open Cert.ReferenceIdeal Cert.ReferenceIdeal.Gen Cert.ReferenceIdeal.Read Cert.Spline
open Idealize.ShloMosaic Idealize.ShloMosaic.ValueIdx

variable (x0 : (⟨S1x64x2, .f32⟩ : BufTy).Contents (Elt Ideal)) (x1 : (⟨S1x64x1, .f32⟩ : BufTy).Contents (Elt Ideal))
  (x2 : (⟨S1x3x1, .f32⟩ : BufTy).Contents (Elt Ideal)) (x3 : (⟨S1x4194304x2, .f32⟩ : BufTy).Contents (Elt Ideal))

/-- Control point n's coordinates, query q's coordinates, the weights, as plain families. -/
abbrev ctrl : Fin 64 → Fin 2 → EReal := fun n d => x0 (ix3 (0 : Fin 1) n d)
abbrev wts : Fin 64 → EReal := fun n => x1 (ix3 (0 : Fin 1) n (0 : Fin 1))
abbrev aff : Fin 3 → EReal := fun k => x2 (ix3 (0 : Fin 1) k (0 : Fin 1))
abbrev query (q : Fin 4194304) : Fin 2 → EReal := fun d => x3 (ix3 (0 : Fin 1) q d)

/-- The squared distance between query q and control point n, as the reference computes it. -/
theorem dist_at (q : Fin 4194304) (n : Fin 64) :
    val_main_v13 (F := Ideal) x0 x3 (ix3 (0 : Fin 1) q n) = distR (ctrl x0 n) (query x3 q) := by
  have e1 : ∀ k : Fin 2, idx_main_v1 (idx_main_v2 (idx_main_v9 (ix3 (0 : Fin 1) q n))) k = ix3 (0 : Fin 1) q k :=
    fun k => funext fun a => Fin.ext (by match a with | ⟨0, _⟩ => rfl | ⟨1, _⟩ => rfl | ⟨2, _⟩ => rfl)
  have e2 : ∀ k : Fin 2, lidx_main_v6 (ix3 (0 : Fin 1) q n) k = ix3 (0 : Fin 1) q k :=
    fun k => funext fun a => Fin.ext (by match a with | ⟨0, _⟩ => rfl | ⟨1, _⟩ => rfl | ⟨2, _⟩ => rfl)
  have e3 : ∀ k : Fin 2, ridx_main_v6 (ix3 (0 : Fin 1) q n) k = ix3 (0 : Fin 1) n k :=
    fun k => funext fun a => Fin.ext (by match a with | ⟨0, _⟩ => rfl | ⟨1, _⟩ => rfl | ⟨2, _⟩ => rfl)
  have e4 : ∀ k : Fin 2, idx_main_v4 (idx_main_v5 (idx_main_v11 (idx_main_v12 (ix3 (0 : Fin 1) q n)))) k = ix3 (0 : Fin 1) n k :=
    fun k => funext fun a => Fin.ext (by match a with | ⟨0, _⟩ => rfl | ⟨1, _⟩ => rfl | ⟨2, _⟩ => rfl)
  rw [val_main_v13_apply, val_main_v10_apply, val_main_v9_apply, val_main_v2_apply, val_main_v1_apply, val_main_v8_apply,
    val_main_v7_apply, val_main_v6_apply, val_main_v12_apply, val_main_v11_apply, val_main_v5_apply, val_main_v4_apply]
  simp only [val_main_v0_apply, val_main_v3_apply, val_main_cst_apply, val_main_cst_0_apply, val_main_cst_1_apply,
    Ideal.addf_def, Ideal.subf_def, Ideal.mulf_def, Ideal.ofBits_def, e1, e2, e3, e4]
  rfl

/-- The radial term of control point n at query q, before its weight: (½·r²)·log(max r² ε). -/
theorem radial_at (q : Fin 4194304) (n : Fin 64) :
    val_main_v19 (F := Ideal) x0 x3 (ix3 (0 : Fin 1) q n)
      = (cHalf * distR (ctrl x0 n) (query x3 q)) * Ideal.log (max (distR (ctrl x0 n) (query x3 q)) cEps) := by
  rw [val_main_v19_apply, val_main_v15_apply, val_main_v18_apply, val_main_v17_apply, val_main_v14_apply, val_main_v16_apply,
    dist_at]
  simp only [val_main_cst_2_apply, val_main_cst_3_apply, Ideal.mulf_def, Ideal.maximumf_def, Ideal.hostUnary_log_def,
    Ideal.ofBits_def]

/-- The query point padded with a one, read off the concatenation. -/
theorem pad_at (q : Fin 4194304) (k : Fin 3) :
    val_main_v22 (F := Ideal) x3 (ix3 (0 : Fin 1) q k) = pad (query x3 q) k := by
  unfold val_main_v22
  match k with
  | ⟨0, _⟩ =>
    exact concatenate_pair_apply_left (t := S1x4194304x3) (s₁ := S1x4194304x2) (s₂ := S1x4194304x1) (2 : Fin 3) x3
      (val_main_v21 (F := Ideal)) concatenates_S1x4194304x2_S1x4194304x1_S1x4194304x3_d2 (ix3 (0 : Fin 1) q (0 : Fin 3)) rfl
      (ix3 (0 : Fin 1) q (0 : Fin 2)) (fun b => by match b with | ⟨0, _⟩ => rfl | ⟨1, _⟩ => rfl | ⟨2, _⟩ => rfl)
  | ⟨1, _⟩ =>
    exact concatenate_pair_apply_left (t := S1x4194304x3) (s₁ := S1x4194304x2) (s₂ := S1x4194304x1) (2 : Fin 3) x3
      (val_main_v21 (F := Ideal)) concatenates_S1x4194304x2_S1x4194304x1_S1x4194304x3_d2 (ix3 (0 : Fin 1) q (1 : Fin 3)) rfl
      (ix3 (0 : Fin 1) q (1 : Fin 2)) (fun b => by match b with | ⟨0, _⟩ => rfl | ⟨1, _⟩ => rfl | ⟨2, _⟩ => rfl)
  | ⟨2, _⟩ =>
    refine (concatenate_pair_apply_right (t := S1x4194304x3) (s₁ := S1x4194304x2) (s₂ := S1x4194304x1) (2 : Fin 3) x3
      (val_main_v21 (F := Ideal)) concatenates_S1x4194304x2_S1x4194304x1_S1x4194304x3_d2 (ix3 (0 : Fin 1) q (2 : Fin 3)) rfl rfl
      (ix3 (0 : Fin 1) q (0 : Fin 1)) (fun b hb => by
        match b with
        | ⟨0, _⟩ => rfl
        | ⟨1, _⟩ => rfl
        | ⟨2, _⟩ => exact absurd rfl hb) rfl).trans ?_
    rw [val_main_v21_apply, val_main_cst_4_apply]
    rfl

/-- THE REFERENCE'S ROW q is the spline's second spelling at query q. -/
theorem row_at (q : Fin 4194304) :
    val_main_v24 (F := Ideal) x0 x1 x2 x3 (ix3 (0 : Fin 1) q (0 : Fin 1)) = outR (ctrl x0) (wts x1) (aff x2) (query x3 q) := by
  have eL : ∀ n : Fin 64, lidx_main_v20 (ix3 (0 : Fin 1) q (0 : Fin 1)) n = ix3 (0 : Fin 1) q n :=
    fun n => funext fun a => Fin.ext (by match a with | ⟨0, _⟩ => rfl | ⟨1, _⟩ => rfl | ⟨2, _⟩ => rfl)
  have eR : ∀ n : Fin 64, ridx_main_v20 (ix3 (0 : Fin 1) q (0 : Fin 1)) n = ix3 (0 : Fin 1) n (0 : Fin 1) :=
    fun n => funext fun a => Fin.ext (by match a with | ⟨0, _⟩ => rfl | ⟨1, _⟩ => rfl | ⟨2, _⟩ => rfl)
  have fL : ∀ k : Fin 3, lidx_main_v23 (ix3 (0 : Fin 1) q (0 : Fin 1)) k = ix3 (0 : Fin 1) q k :=
    fun k => funext fun a => Fin.ext (by match a with | ⟨0, _⟩ => rfl | ⟨1, _⟩ => rfl | ⟨2, _⟩ => rfl)
  have fR : ∀ k : Fin 3, ridx_main_v23 (ix3 (0 : Fin 1) q (0 : Fin 1)) k = ix3 (0 : Fin 1) k (0 : Fin 1) :=
    fun k => funext fun a => Fin.ext (by match a with | ⟨0, _⟩ => rfl | ⟨1, _⟩ => rfl | ⟨2, _⟩ => rfl)
  rw [val_main_v24_apply, val_main_v20_apply, val_main_v23_apply]
  simp only [eL, eR, fL, fR, radial_at, pad_at, Ideal.addf_def]
  rfl

end Cert.ReferenceIdeal.Rows

end
-- ==== Proof.Bridge.lean ====
/-
  The two images, pixel by pixel. Pixel (0, y, x, 0) of either image is entry 2048·y + x of a column of 4194304
  values: on the kernel's side the result row [1, 4194304] reshaped, on the reference's side the column
  [1, 4194304, 1] reshaped. At that query the kernel's row holds the spline's first spelling and the reference's
  column the second, and for finite control and query points the two are one number.
-/
import proofs.«120117_j14087492731389_2_alg».proof.Proof.RefRows
import proofs.«120117_j14087492731389_2_alg».proof.Proof.SplineLaw
import proofs.«120117_j14087492731389_2_alg».proof.KernelIdeal
import Idealize.ShloMosaic.Lib.ValueIdx
import Idealize.ShloMosaic.Lib.Pipeline.Value

noncomputable section

namespace Cert.Bridge

open Cert.Spline Cert.ReferenceIdeal Cert.ReferenceIdeal.Gen
open Idealize.ShloMosaic Idealize.ShloMosaic.ValueIdx

/-- The query a pixel shows: 2048·y + x. -/
def colOf (i : S1x2048x2048x1.Idx) : Fin 4194304 :=
  ⟨((((i 0).val * 2048 + (i 1).val) * 2048 + (i 2).val) * 1 + (i 3).val) / 1 % 4194304, Nat.mod_lt _ (by decide)⟩

variable (x0 : (⟨S1x64x2, .f32⟩ : BufTy).Contents (Elt Ideal)) (x1 : (⟨S1x64x1, .f32⟩ : BufTy).Contents (Elt Ideal))
  (x2 : (⟨S1x3x1, .f32⟩ : BufTy).Contents (Elt Ideal)) (x3 : (⟨S1x4194304x2, .f32⟩ : BufTy).Contents (Elt Ideal))

/-- A pixel of the reference's image is the second spelling at the pixel's query. -/
theorem ref_pixel (i : S1x2048x2048x1.Idx) :
    Read.val_main_v25 (F := Ideal) x0 x1 x2 x3 i
      = outR (Rows.ctrl x0) (Rows.wts x1) (Rows.aff x2) (Rows.query x3 (colOf i)) := by
  have e : Read.idx_main_v25 i = ix3 (0 : Fin 1) (colOf i) (0 : Fin 1) :=
    funext fun a => Fin.ext (by match a with | ⟨0, _⟩ => rfl | ⟨1, _⟩ => rfl | ⟨2, _⟩ => rfl)
  rw [Read.val_main_v25_apply, e, Rows.row_at]

/-- A pixel of the reshaped row is the row's entry at the pixel's query. -/
theorem row_pixel (row : Cert.KernelIdeal.S1x4194304.Idx → EReal)
    (h : Cert.KernelIdeal.S1x4194304.ShapeCasts Cert.KernelIdeal.S1x2048x2048x1) (i : S1x2048x2048x1.Idx) :
    shapeCast Cert.KernelIdeal.S1x2048x2048x1 row h i = row (ix2 (0 : Fin 1) (colOf i)) :=
  shapeCast_apply row h i (ix2 (0 : Fin 1) (colOf i)) (by
    rw [Shape.rowMajor_val_two, Shape.rowMajor_val_four]
    have h0 : (i 0).val < 1 := (i 0).isLt
    have h1 : (i 1).val < 2048 := (i 1).isLt
    have h2 : (i 2).val < 2048 := (i 2).isLt
    have h3 : (i 3).val < 1 := (i 3).isLt
    show 0 * 4194304 + ((((i 0).val * 2048 + (i 1).val) * 2048 + (i 2).val) * 1 + (i 3).val) / 1 % 4194304
      = (((i 0).val * 2048 + (i 1).val) * 2048 + (i 2).val) * 1 + (i 3).val
    omega)

/-- THE TWO IMAGES ARE EQUAL when the row holds the first spelling at every query and the points are finite. -/
theorem images_agree (hf0 : ∀ i, Fin' (x0 i)) (hf3 : ∀ i, Fin' (x3 i))
    (row : Cert.KernelIdeal.S1x4194304.Idx → EReal)
    (h : Cert.KernelIdeal.S1x4194304.ShapeCasts Cert.KernelIdeal.S1x2048x2048x1)
    (hrow : ∀ q : Fin 4194304, row (ix2 (0 : Fin 1) q)
      = outK (Rows.ctrl x0) (Rows.wts x1) (Rows.aff x2) (Rows.query x3 q)) :
    shapeCast Cert.KernelIdeal.S1x2048x2048x1 row h = Read.val_main_v25 (F := Ideal) x0 x1 x2 x3 := by
  funext i
  rw [row_pixel, hrow, ref_pixel]
  exact outK_eq_outR _ _ _ _ (fun n d => hf0 _) (fun d => hf3 _)

end Cert.Bridge

end
-- ==== Proof.Finite.lean ====
/-
  The precondition read back. It is the conjunction, over the four arguments, of "every entry's absolute value is
  below +∞"; an extended real whose absolute value max x (−x) is below +∞ is a real number. The spline's law needs
  this of the control points and of the query points.
-/
import proofs.«120117_j14087492731389_2_alg».proof.Pre_finite_inputs
import proofs.«120117_j14087492731389_2_alg».proof.Proof.Gen.Pre_finite_inputs
import proofs.«120117_j14087492731389_2_alg».proof.Proof.SplineLaw
import Idealize.ShloMosaic.Lib.ReduceAll
import Idealize.ShloMosaic.Lib.Affine
import Idealize.ShloMosaic.Lib.ValueIdx
import Idealize.ShloMosaic.PureOps.Ideal.Laws

noncomputable section

namespace Cert.Spline.Pre

open Cert.Spline Cert.Pre_finite_inputs
open Idealize.ShloMosaic Idealize.ShloMosaic.ValueIdx

instance : Subsingleton Cert.Pre_finite_inputs.S_.Idx := ⟨fun a b => funext fun d => d.elim0⟩

/-- The pattern 0x7F800000 is +∞. -/
theorem inf_eq : Ideal.ofBits .f32 0x7F800000#32 = (⊤ : EReal) := by
  simp [Ideal.ofBits, Ideal.ieee]

/-- |x| < +∞ makes x a real number. -/
theorem finite_of_abs_lt (x : EReal) (h : Ideal.cmp .olt (max x (-x)) (Ideal.ofBits .f32 0x7F800000#32) = 1#1) : Fin' x := by
  rw [inf_eq] at h
  have hlt : max x (-x) < ⊤ := by
    by_contra hn
    unfold Ideal.cmp at h
    simp [hn] at h
  induction x using EReal.rec with
  | bot => simp at hlt
  | coe r => exact ⟨EReal.coe_ne_top r, EReal.coe_ne_bot r⟩
  | top => simp at hlt

variable [Cert.Pre_finite_inputs.Facts]

/-- Under the precondition the control points and the query points are real. -/
theorem points_finite (x0 : FVec Ideal S1x64x2 .f32) (x1 : FVec Ideal S1x64x1 .f32) (x2 : FVec Ideal S1x3x1 .f32) (x3 : FVec Ideal S1x4194304x2 .f32)
    (h : Cert.Pre_finite_inputs.fn (F := Ideal) x0 x1 x2 x3 = fun _ => 1#1) :
    (∀ i, Fin' (x0 i)) ∧ (∀ i, Fin' (x3 i)) := by
  have h0 := congrFun h ValueIdx.ix0
  dsimp only [Cert.Pre_finite_inputs.fn, Cert.Pre_finite_inputs.fn_part1] at h0
  change IntOp.andi _ _ = 1#1 at h0
  obtain ⟨h13, h17⟩ := IntOp.andi_eq_one.mp h0
  change IntOp.andi _ _ = 1#1 at h13
  obtain ⟨h8, -⟩ := IntOp.andi_eq_one.mp h13
  change IntOp.andi _ _ = 1#1 at h8
  obtain ⟨h3, -⟩ := IntOp.andi_eq_one.mp h8
  refine ⟨fun i => ?_, fun i => ?_⟩
  · have e := Host.reduce_andi_all _ _ _ _ _ h3 i
    exact finite_of_abs_lt (x0 i) e
  · have e := Host.reduce_andi_all _ _ _ _ _ h17 i
    exact finite_of_abs_lt (x3 i) e

end Cert.Spline.Pre

end
-- ==== Proof.lean ====
/-
  The certificate of the thin-plate-spline kernel against its reference.

  The kernel computes, for 4194304 query points in 256 tiles of 16384, the spline
    ∑ₙ ½·r²ₙ·log(max r²ₙ ε)·wₙ + (qx·v₀ + qy·v₁ + v₂),   r²ₙ = |q − tₙ|²,
  with r² expanded as the product of the control-point matrix [−2tx, −2ty, 1, tx²+ty²] with the column
  [qx, qy, qx²+qy², 1] and the ½ folded into the weights; the reference computes (|q|² − 2 q·t) + |t|² and ½·r²
  directly. The three programs run to the end and leave their arguments unchanged (the kernel's two readings by
  the run of its launch, tile by tile; the reference by its host lines); nothing was rewritten between the kernel
  and its idealization; and on the extended reals the two images are equal pixel by pixel, because for finite
  control and query points the two r² are one real number and the rest is commutativity and associativity.
-/
import proofs.«120117_j14087492731389_2_alg».proof.Defs
import proofs.«120117_j14087492731389_2_alg».proof.Proof.Gen.Kernel
import proofs.«120117_j14087492731389_2_alg».proof.Proof.Gen.KernelIdeal
import proofs.«120117_j14087492731389_2_alg».proof.Proof.Gen.ReferenceIdeal
import proofs.«120117_j14087492731389_2_alg».proof.Proof.Gen.Pre_finite_inputs
import proofs.«120117_j14087492731389_2_alg».proof.Proof.Gen.ReferenceIdeal.Run
import proofs.«120117_j14087492731389_2_alg».proof.Proof.Gen.ReferenceIdeal.Read
import proofs.«120117_j14087492731389_2_alg».proof.Proof.BitsTile
import proofs.«120117_j14087492731389_2_alg».proof.Proof.IdealImage
import proofs.«120117_j14087492731389_2_alg».proof.Proof.Bridge
import proofs.«120117_j14087492731389_2_alg».proof.Proof.Finite

noncomputable section

namespace Cert.Proof

open Idealize.ShloMosaic Idealize.ShloMosaic.TcCoe Idealize.SL.Sem

theorem frame_kernel : Cert.frame_Kernel := fun m ρ _ => Cert.Kernel.Tile.frame m ρ

theorem frame_ideal : Cert.frame_KernelIdeal := fun m ρ _ => Cert.KernelIdeal.Tile.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the same image: the reshape of the whole-row function of the operands the
    launch found, which at each pixel's query is the spline's first spelling, equal to the reference's second. -/
theorem algebraic : Cert.algebraic_KernelIdeal_ReferenceIdeal := by
  intro m ρ m' ρ' hpre hagree
  refine ⟨_, Cert.KernelIdeal.Image.run m ρ, ?_⟩
  refine (θ_run Cert.ReferenceIdeal.defs _ _).mono (fun _ h c => ⟨(h c).1.trans ?_, (h c).2⟩)
    (Cert.ReferenceIdeal.Value.run (F := Ideal) m' ρ')
  obtain ⟨hf0, hf3⟩ := Cert.Spline.Pre.points_finite _ _ _ _ (hpre c)
  rw [Cert.ReferenceIdeal.Read.val_main_v25_eq, (hagree c).1, (hagree c).2.1, (hagree c).2.2.1, (hagree c).2.2.2]
  exact (Cert.Bridge.images_agree _ _ _ _ hf0 hf3 _ _ (fun q => Cert.KernelIdeal.Row.row_at m c q)).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
